-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x8x128 : Shape := ⟨3, ![65536, 8, 128]⟩
abbrev S128x128 : Shape := ⟨2, ![128, 128]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x8x128 : S_.BroadcastsInDim S65536x8x128 (![] : Fin 0 → Fin S65536x8x128.rank)
  reducesTo_S65536x8x128_S_d0_1_2 : S65536x8x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  main_v73

def fn_part3 {F : FTy → Type} [FloatOps F] (main_arg11 : FVec F S128x128 .f32) (main_arg12 : FVec F S128x128 .f32) (main_arg13 : FVec F S128 .f32) (main_arg14 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x128 .f32) (main_arg1 : FVec F S65536x8x128 .f32) (main_arg2 : FVec F S65536x8x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x8x128 .f32 := Host.absf main_arg1
  let main_cst_0 : FVec F S_ .f32 := constant S_ .f32 0x7F800000#32
  let main_v5 : FVec F S65536x8x128 .f32 := broadcastInDim S65536x8x128 ![] bcast_S_S65536x8x128 main_cst_0
  let main_v6 : IVec S65536x8x128 1 := cmpf .olt main_v4 main_v5
  let main_c_1 : IVec S_ 1 := constantI S_ 1 1#1
  let main_v7 : IVec S_ 1 := (fun x v => Host.reduce IntOp.andi x v reducesTo_S65536x8x128_S_d0_1_2 h_S_) main_v6 main_c_1
  let main_v8 : IVec S_ 1 := andi main_v3 main_v7
  let main_v9 : FVec F S65536x8x128 .f32 := Host.absf main_arg2
  let main_cst_2 : FVec F S_ .f32 := constant S_ .f32 0x7F800000#32
  let main_v10 : FVec F S65536x8x128 .f32 := broadcastInDim S65536x8x128 ![] bcast_S_S65536x8x128 main_cst_2
  let main_v11 : IVec S65536x8x128 1 := cmpf .olt main_v9 main_v10
  let main_c_3 : IVec S_ 1 := constantI S_ 1 1#1
  let main_v12 : IVec S_ 1 := (fun x v => Host.reduce IntOp.andi x v reducesTo_S65536x8x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x128 : Shape := ⟨2, ![65536, 128]⟩
abbrev S65536x8x128 : Shape := ⟨3, ![65536, 8, 128]⟩
abbrev S128x128 : Shape := ⟨2, ![128, 128]⟩
abbrev S128 : Shape := ⟨1, ![128]⟩
abbrev S128x512 : Shape := ⟨2, ![128, 512]⟩
abbrev S128x384 : Shape := ⟨2, ![128, 384]⟩
abbrev S512 : Shape := ⟨1, ![512]⟩
abbrev S1x512 : Shape := ⟨2, ![1, 512]⟩
abbrev S512x128 : Shape := ⟨2, ![512, 128]⟩
abbrev S512x8x128 : Shape := ⟨3, ![512, 8, 128]⟩
abbrev S512x512 : Shape := ⟨2, ![512, 512]⟩
abbrev S512x384 : Shape := ⟨2, ![512, 384]⟩
abbrev S4096x128 : Shape := ⟨2, ![4096, 128]⟩
abbrev S512x1x128 : Shape := ⟨3, ![512, 1, 128]⟩

abbrev nBuf : Space → Nat
  | .hbm => 24
  | .vmem => 14
  | .smem => 0
  | _ => 0

abbrev bufTy : (tb : Table) → Fin (tcTables nBuf tb) → BufTy
  | .hbm, ⟨0, _⟩ => ⟨S65536x128, .f32⟩
  | .hbm, ⟨1, _⟩ => ⟨S65536x8x128, .f32⟩
  | .hbm, ⟨2, _⟩ => ⟨S65536x8x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x512, .f32⟩
  | .hbm, ⟨16, _⟩ => ⟨S128x512, .bf16⟩
  | .hbm, ⟨17, _⟩ => ⟨S128x384, .f32⟩
  | .hbm, ⟨18, _⟩ => ⟨S128x384, .bf16⟩
  | .hbm, ⟨19, _⟩ => ⟨S128x128, .bf16⟩
  | .hbm, ⟨20, _⟩ => ⟨S512, .f32⟩
  | .hbm, ⟨21, _⟩ => ⟨S1x512, .f32⟩
  | .hbm, ⟨22, _⟩ => ⟨S65536x128, .f32⟩
  | .hbm, ⟨23, _⟩ => ⟨S65536x128, .f32⟩
  | .local _ .vmem, ⟨0, _⟩ => ⟨S512x128, .f32⟩
  | .local _ .vmem, ⟨1, _⟩ => ⟨S512x128, .f32⟩
  | .local _ .vmem, ⟨2, _⟩ => ⟨S512x8x128, .f32⟩
  | .local _ .vmem, ⟨3, _⟩ => ⟨S512x8x128, .f32⟩
  | .local _ .vmem, ⟨4, _⟩ => ⟨S512x8x128, .f32⟩
  | .local _ .vmem, ⟨5, _⟩ => ⟨S512x8x128, .f32⟩
  | .local _ .vmem, ⟨6, _⟩ => ⟨S128x512, .bf16⟩
  | .local _ .vmem, ⟨7, _⟩ => ⟨S1x512, .f32⟩
  | .local _ .vmem, ⟨8, _⟩ => ⟨S128x384, .bf16⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x128_S128x128_S128x128_S128x128_S128x512_d1 : Shape.Concatenates [S128x128, S128x128, S128x128, S128x128] S128x512 1
  bitsLt_bf16_f32 : FTy.bits .bf16 < FTy.bits .f32
  concatenates_S128x128_S128x128_S128x128_S128x384_d1 : Shape.Concatenates [S128x128, S128x128, S128x128] S128x384 1
  concatenates_S128_S128_S128_S128_S512_d0 : Shape.Concatenates [S128, S128, S128, S128] S512 0
  shapeCasts_S512_S1x512 : S512.ShapeCasts S1x512
  inb_S512x128_S512x128_0_0 : ∀ a, (![0, 0] : Fin 2 → Nat) a + S512x128.size a ≤ S512x128.size a
  h_S512x128 : 0 < S512x128.numel
  inb_S512x8x128_S512x8x128_0_0_0 : ∀ a, (![0, 0, 0] : Fin 3 → Nat) a + S512x8x128.size a ≤ S512x8x128.size a
  h_S512x8x128 : 0 < S512x8x128.numel
  reduces_S512x8x128_S512x128 : S512x8x128.Reduces [1] S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  slices_S512x384_o0_0_S512x128 : S512x384.Slices ![0, 0] S512x128
  slices_S512x384_o0_128_S512x128 : S512x384.Slices ![0, 128] S512x128
  slices_S512x384_o0_256_S512x128 : S512x384.Slices ![0, 256] S512x128
  shapeCasts_S512x8x128_S4096x128 : S512x8x128.ShapeCasts S4096x128
  shapeCasts_S4096x128_S512x8x128 : S4096x128.ShapeCasts S512x8x128
  shapeCasts_S512x128_S512x1x128 : S512x128.ShapeCasts S512x1x128
  broadcasts_S512x1x128_S512x8x128 : S512x1x128.Broadcasts S512x8x128
  dot_S512x128_S128x512_S512x512_1_0_0_1_n_n_wf : DotDims.WF S512x128 S128x512 S512x512 [1] [0] [0] [1] [] []
  dot_S512x128_S128x384_S512x384_1_0_0_1_n_n_wf : DotDims.WF S512x128 S128x384 S512x384 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x128.size a ≤ S65536x8x128.size a
  hwx0_1 : ∀ i : grid0.Coords, EltTy.bits .f32 = 32 ∨ (Rect.block (s := S65536x8x128) S512x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8x128.size a ≤ S65536x8x128.size a
  hwx0_2 : ∀ i : grid0.Coords, EltTy.bits .f32 = 32 ∨ (Rect.block (s := S65536x8x128) S512x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .bf16 = 32 ∨ (Rect.block (s := S128x384) S128x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S65536x128.size a
  hwx0_7 : ∀ i : grid0.Coords, EltTy.bits .f32 = 32 ∨ (Rect.block (s := S65536x128) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S65536x128.size a
  hwx0_8 : ∀ i : grid0.Coords, EltTy.bits .f32 = 32 ∨ (Rect.block (s := S65536x128) S512x128.size (cc0_transform_8 i) (hinb0_8 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x8x128 : Shape := ⟨3, ![65536, 8, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S65536x1x128 : Shape := ⟨3, ![65536, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x8x128, .f32⟩
  | .hbm, ⟨2, _⟩ => ⟨S65536x8x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S_, .f32⟩
  | .hbm, ⟨16, _⟩ => ⟨S65536x128, .f32⟩
  | .hbm, ⟨17, _⟩ => ⟨S65536x128, .f32⟩
  | .hbm, ⟨18, _⟩ => ⟨S1x128, .f32⟩
  | .hbm, ⟨19, _⟩ => ⟨S65536x128, .f32⟩
  | .hbm, ⟨20, _⟩ => ⟨S65536x128, .f32⟩
  | .hbm, ⟨21, _⟩ => ⟨S65536x128, .f32⟩
  | .hbm, ⟨22, _⟩ => ⟨S65536x128, .f32⟩
  | .hbm, ⟨23, _⟩ => ⟨S65536x128, .f32⟩
  | .hbm, ⟨24, _⟩ => ⟨S65536x128, .f32⟩
  | .hbm, ⟨25, _⟩ => ⟨S_, .f32⟩
  | .hbm, ⟨26, _⟩ => ⟨S65536x128, .f32⟩
  | .hbm, ⟨27, _⟩ => ⟨S65536x128, .f32⟩
  | .hbm, ⟨28, _⟩ => ⟨S_, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S1x128, .f32⟩
  | .hbm, ⟨33, _⟩ => ⟨S65536x128, .f32⟩
  | .hbm, ⟨34, _⟩ => ⟨S65536x128, .f32⟩
  | .hbm, ⟨35, _⟩ => ⟨S65536x128, .f32⟩
  | .hbm, ⟨36, _⟩ => ⟨S65536x128, .f32⟩
  | .hbm, ⟨37, _⟩ => ⟨S65536x128, .f32⟩
  | .hbm, ⟨38, _⟩ => ⟨S65536x128, .f32⟩
  | .hbm, ⟨39, _⟩ => ⟨S_, .f32⟩
  | .hbm, ⟨40, _⟩ => ⟨S65536x128, .f32⟩
  | .hbm, ⟨41, _⟩ => ⟨S65536x128, .f32⟩
  | .hbm, ⟨42, _⟩ => ⟨S_, .f32⟩
  | .hbm, ⟨43, _⟩ => ⟨S65536x128, .f32⟩
  | .hbm, ⟨44, _⟩ => ⟨S65536x128, .f32⟩
  | .hbm, ⟨45, _⟩ => ⟨S65536x128, .f32⟩
  | .hbm, ⟨46, _⟩ => ⟨S1x128, .f32⟩
  | .hbm, ⟨47, _⟩ => ⟨S65536x128, .f32⟩
  | .hbm, ⟨48, _⟩ => ⟨S65536x128, .f32⟩
  | .hbm, ⟨49, _⟩ => ⟨S65536x128, .f32⟩
  | .hbm, ⟨50, _⟩ => ⟨S65536x128, .f32⟩
  | .hbm, ⟨51, _⟩ => ⟨S65536x128, .f32⟩
  | .hbm, ⟨52, _⟩ => ⟨S65536x128, .f32⟩
  | .hbm, ⟨53, _⟩ => ⟨S1x128, .f32⟩
  | .hbm, ⟨54, _⟩ => ⟨S65536x128, .f32⟩
  | .hbm, ⟨55, _⟩ => ⟨S65536x128, .f32⟩
  | .hbm, ⟨56, _⟩ => ⟨S65536x1x128, .f32⟩
  | .hbm, ⟨57, _⟩ => ⟨S65536x8x128, .f32⟩
  | .hbm, ⟨58, _⟩ => ⟨S65536x8x128, .f32⟩
  | .hbm, ⟨59, _⟩ => ⟨S65536x8x128, .f32⟩
  | .hbm, ⟨60, _⟩ => ⟨S65536x8x128, .f32⟩
  | .hbm, ⟨61, _⟩ => ⟨S65536x8x128, .f32⟩
  | .hbm, ⟨62, _⟩ => ⟨S_, .f32⟩
  | .hbm, ⟨63, _⟩ => ⟨S65536x8x128, .f32⟩
  | .hbm, ⟨64, _⟩ => ⟨S65536x8x128, .f32⟩
  | .hbm, ⟨65, _⟩ => ⟨S_, .f32⟩
  | .hbm, ⟨66, _⟩ => ⟨S65536x8x128, .f32⟩
  | .hbm, ⟨67, _⟩ => ⟨S65536x8x128, .f32⟩
  | .hbm, ⟨68, _⟩ => ⟨S65536x128, .f32⟩
  | .hbm, ⟨69, _⟩ => ⟨S65536x8x128, .f32⟩
  | .hbm, ⟨70, _⟩ => ⟨S_, .f32⟩
  | .hbm, ⟨71, _⟩ => ⟨S65536x128, .f32⟩
  | .hbm, ⟨72, _⟩ => ⟨S65536x128, .f32⟩
  | .hbm, ⟨73, _⟩ => ⟨S65536x128, .f32⟩
  | .hbm, ⟨74, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  reducesTo_S65536x8x128_S65536x128_d1 : S65536x8x128.ReducesTo [1] S65536x128
  h_S_ : 0 < S_.numel
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S65536x128_S65536x1x128_0_2 : S65536x128.BroadcastsInDim S65536x1x128 (![0, 2] : Fin 2 → Fin S65536x1x128.rank)
  bcast_S65536x1x128_S65536x8x128_0_1_2 : S65536x1x128.BroadcastsInDim S65536x8x128 (![0, 1, 2] : Fin 3 → Fin S65536x8x128.rank)
  bcast_S_S65536x8x128 : S_.BroadcastsInDim S65536x8x128 (![] : Fin 0 → Fin S65536x8x128.rank)
  dot_S65536x128_S128x128_S65536x128_1_0_0_1_n_n_wf : DotDims.WF S65536x128 S128x128 S65536x128 [1] [0] [0] [1] [] []
  dot_S65536x8x128_S128x128_S65536x8x128_2_0_01_1_n_n_wf : DotDims.WF S65536x8x128 S128x128 S65536x8x128 [2] [0] [0, 1] [1] [] []

variable [Facts₀]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x8x128_S128x128_S65536x8x128_2_0_01_1_n_n : DotDims S65536x8x128 S128x128 S65536x8x128 where
  lhsContracting := [2]
  rhsContracting := [0]
  lhsNonContracting := [0, 1]
  rhsNonContracting := [1]
  lhsBatch := []
  rhsBatch := []
  wf := dot_S65536x8x128_S128x128_S65536x8x128_2_0_01_1_n_n_wf

class Facts : Prop extends Facts₀ where

variable [Facts]
-- ==== Proof.KernelEntry.lean ====
/-
  The region of `Kernel` as @main reaches it. Before its one kernel launch @main joins the four input-side weight
  matrices side by side into one [128,512] matrix, the three hidden-side ones into one [128,384] matrix, the four bias
  vectors end to end into one [1,512] row, and changes the float format of the joined matrices and of the forget
  matrix; none of these lines writes an argument array. This module names the buffers' contents at the launch
  (`V`), shows each argument array is found there as it was given, names each window's block at a grid point
  (`iblk`: rows 512·t … 512·t+511 of the three streamed arrays, the whole of the four resident ones), and reads the
  frame claim's post off a run of the launch. Everything is stated at any float instance.
-/
import proofs.«114151_j15710990369454_2_alg».proof.Proof.Gen.Kernel.Launch
import proofs.«114151_j15710990369454_2_alg».proof.Proof.Gen.Kernel.Skeleton
import proofs.«114151_j15710990369454_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main up to the launch -/

/-- Core `c`'s buffers when the kernel is launched: after the seven host lines that join and recast the weights. -/
abbrev V (c : Dev nD) (b : Ref sig .tc) : Buf (Elt F) ((c : Thread nD τ).loc b) :=
  StableHlo.after (List.flatten [hostOps0]) (fun b => m (c, b)) b

/-- None of the seven lines allocates a buffer. -/
theorem hostOps0_fresh : (hostOps0 : List (HloOp τ sig (Elt F))).Forall fun op => op.fresh = ∅ := by
  simp only [List.Forall]; repeat' constructor

/-- @main is those lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The seven lines write only their own result buffers, so `main_arg0` is found as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg1` is found as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg2` is found as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg3` is found as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg4` is found as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg5` is found as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg6` is found as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg7` is found as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg8` is found as it was given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg9` is found as it was given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg10` is found as it was given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg11` is found as it was given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg12` is found as it was given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg13` is found as it was given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg14` is found as it was given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index stood still since the fetch, for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or the
    block index stood still since the fetch, for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or the
    block index stood still since the fetch, for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or the
    block index stood still since the fetch, for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or the
    block index stood still since the fetch, for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or the
    block index stood still since the fetch, for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetched it or the
    block index stood still since the fetch, for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the launch -/

/-- For any proof data over `V`, a run to the launch's post gives the frame claim's post: the three streamed arrays
    are input windows' arrays, which the launch returns as it found them; the twelve weight and bias arrays are staged
    by no window and are returned untouched; each was found as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Region

end
-- ==== Proof.KernelBody.lean ====
/-
  The kernel of `Kernel` at one grid point, and the run of its launch. At a point the body reads a block of 512 rows
  of x, of the children's hidden states and of their cell states, and the whole joined weights, bias row and forget
  matrix; it overwrites the whole [512,128] block of each output: the new cell state
  c = i ⊙ u + Σₖ fₖ ⊙ cₖ and the new hidden state h = o ⊙ tanh c, the gates being the payload terms of the body's
  arithmetic. This module states that as a triple of the body, gives the launch its proof data (inputs' buffers hold
  their blocks, outputs' buffers hold those two terms of the blocks), and concludes the run of @main and the frame.
  Everything is stated at any float instance.
-/
import proofs.«114151_j15710990369454_2_alg».proof.Proof.KernelEntry

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer is read and written whole -/

abbrev rRows : Rect S512x128 := Rect.unit (s := S512x128) ![0, 0] S512x128.size inb_S512x128_S512x128_0_0
abbrev rKids : Rect S512x8x128 := Rect.unit (s := S512x8x128) ![0, 0, 0] S512x8x128.size inb_S512x8x128_S512x8x128_0_0_0
abbrev rW4 : Rect S128x512 := Rect.unit (s := S128x512) ![0, 0] S128x512.size inb_S128x512_S128x512_0_0
abbrev rBias : Rect S1x512 := Rect.unit (s := S1x512) ![0, 0] S1x512.size inb_S1x512_S1x512_0_0
abbrev rW3 : Rect S128x384 := Rect.unit (s := S128x384) ![0, 0] S128x384.size inb_S128x384_S128x384_0_0
abbrev rWf : Rect S128x128 := Rect.unit (s := S128x128) ![0, 0] S128x128.size inb_S128x128_S128x128_0_0

/-! ## What the body leaves in each output buffer -/

/-- The new cell state of the block's 512 nodes, from the seven input blocks: i ⊙ u + Σₖ fₖ ⊙ cₖ. -/
def cellBlock (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : FVec F S512x128 .f32 :=
  k0_pay1 (k0_pay5 (View.ld x0 rRows) (View.ld x1 rKids) (View.ld x3 rW4) (View.ld x5 rW3) (View.ld x4 rBias))
    (k0_pay7 (View.ld x0 rRows) (View.ld x1 rKids) (View.ld x3 rW4) (View.ld x5 rW3) (View.ld x4 rBias))
    (k0_pay8 (View.ld x0 rRows) (View.ld x1 rKids) (View.ld x3 rW4) (View.ld x6 rWf) (View.ld x4 rBias))
    (View.ld x2 rKids)

/-- The new hidden state of the block's 512 nodes: o ⊙ tanh c. -/
def hiddenBlock (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : FVec F S512x128 .f32 :=
  k0_pay2 (k0_pay5 (View.ld x0 rRows) (View.ld x1 rKids) (View.ld x3 rW4) (View.ld x5 rW3) (View.ld x4 rBias))
    (k0_pay6 (View.ld x0 rRows) (View.ld x1 rKids) (View.ld x3 rW4) (View.ld x5 rW3) (View.ld x4 rBias))
    (k0_pay7 (View.ld x0 rRows) (View.ld x1 rKids) (View.ld x3 rW4) (View.ld x5 rW3) (View.ld x4 rBias))
    (k0_pay8 (View.ld x0 rRows) (View.ld x1 rKids) (View.ld x3 rW4) (View.ld x6 rWf) (View.ld x4 rBias))
    (View.ld x2 rKids)

/-- The hidden-state output's buffer after the body: its one store, of the whole block. -/
def out0_7 (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : Vec F S512x128 .f32 :=
  View.canon [⟨rRows, hiddenBlock x0 x1 x2 x3 x4 x5 x6⟩]

/-- The cell-state output's buffer after the body: its one store, of the whole block. -/
def out0_8 (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : Vec F S512x128 .f32 :=
  View.canon [⟨rRows, cellBlock x0 x1 x2 x3 x4 x5 x6⟩]

/-- One store of the whole block covers the buffer. -/
theorem cover_rows (p0 : Vec F S512x128 .f32) (y : S512x128.Idx) :
    ∃ pc ∈ ([⟨rRows, p0⟩] : List (View.Piece (Elt F) S512x128 .f32)), y ∈ pc.1.set :=
  View.cover_of_tiled [⟨rRows, p0⟩] S512x128.size (by rfl) y

/-! ## The body's triple -/

set_option maxHeartbeats 4000000 in
/-- The body on whole staging buffers, the inputs' at contents `xW` and the outputs' at anything, runs to the
    continuation with the inputs' as they were and the outputs' at `out0_7` and `out0_8` of the inputs'. -/
theorem sound_kernel (c : Dev nD) (E : Set ℕ) (i : grid0.Coords) (arg1 : Memref sig .tc .vmem S512x128 .f32) (harg1 : arg1.IsWhole) (arg2 : Memref sig .tc .vmem S512x8x128 .f32) (harg2 : arg2.IsWhole) (arg3 : Memref sig .tc .vmem S512x8x128 .f32) (harg3 : arg3.IsWhole) (arg4 : Memref sig .tc .vmem S128x512 .bf16) (harg4 : arg4.IsWhole) (arg5 : Memref sig .tc .vmem S1x512 .f32) (harg5 : arg5.IsWhole) (arg6 : Memref sig .tc .vmem S128x384 .bf16) (harg6 : arg6.IsWhole) (arg7 : Memref sig .tc .vmem S128x128 .bf16) (harg7 : arg7.IsWhole) (arg8 : Memref sig .tc .vmem S512x128 .f32) (harg8 : arg8.IsWhole) (arg9 : Memref sig .tc .vmem S512x128 .f32) (harg9 : arg9.IsWhole)
    (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__treelstm_kernel i arg1 harg1 arg2 harg2 arg3 harg3 arg4 harg4 arg5 harg5 arg6 harg6 arg7 harg7 arg8 harg8 arg9 harg9) K := by
  simp only [cc0__treelstm_kernel_eq_skeleton]; unfold cc0__treelstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The launch's proof data -/

/-- On core `c`: the arrays as the launch finds them; after the body at point `t` each input's buffer at its block,
    the hidden-state output's at `out0_7` and the cell-state output's at `out0_8` of the input blocks; nothing kept
    between points beyond what the launch itself keeps; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; what the launch keeps
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, faults nowhere, and ends with
    each window's array at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves its fifteen argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Region

end
-- ==== Proof.KernelIdealEntry.lean ====
/-
  The region of `KernelIdeal` as @main reaches it. Before its one kernel launch @main joins the four input-side weight
  matrices side by side into one [128,512] matrix, the three hidden-side ones into one [128,384] matrix, the four bias
  vectors end to end into one [1,512] row, and changes the float format of the joined matrices and of the forget
  matrix; none of these lines writes an argument array. This module names the buffers' contents at the launch
  (`V`), shows each argument array is found there as it was given, names each window's block at a grid point
  (`iblk`: rows 512·t … 512·t+511 of the three streamed arrays, the whole of the four resident ones), and reads the
  frame claim's post off a run of the launch. Everything is stated at any float instance.
-/
import proofs.«114151_j15710990369454_2_alg».proof.Proof.Gen.KernelIdeal.Launch
import proofs.«114151_j15710990369454_2_alg».proof.Proof.Gen.KernelIdeal.Skeleton
import proofs.«114151_j15710990369454_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main up to the launch -/

/-- Core `c`'s buffers when the kernel is launched: after the seven host lines that join and recast the weights. -/
abbrev V (c : Dev nD) (b : Ref sig .tc) : Buf (Elt F) ((c : Thread nD τ).loc b) :=
  StableHlo.after (List.flatten [hostOps0]) (fun b => m (c, b)) b

/-- None of the seven lines allocates a buffer. -/
theorem hostOps0_fresh : (hostOps0 : List (HloOp τ sig (Elt F))).Forall fun op => op.fresh = ∅ := by
  simp only [List.Forall]; repeat' constructor

/-- @main is those lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The seven lines write only their own result buffers, so `main_arg0` is found as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg1` is found as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg2` is found as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg3` is found as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg4` is found as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg5` is found as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg6` is found as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg7` is found as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg8` is found as it was given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg9` is found as it was given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg10` is found as it was given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg11` is found as it was given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg12` is found as it was given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg13` is found as it was given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- The seven lines write only their own result buffers, so `main_arg14` is found as it was given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index stood still since the fetch, for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or the
    block index stood still since the fetch, for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or the
    block index stood still since the fetch, for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or the
    block index stood still since the fetch, for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or the
    block index stood still since the fetch, for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or the
    block index stood still since the fetch, for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetched it or the
    block index stood still since the fetch, for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the launch -/

/-- For any proof data over `V`, a run to the launch's post gives the frame claim's post: the three streamed arrays
    are input windows' arrays, which the launch returns as it found them; the twelve weight and bias arrays are staged
    by no window and are returned untouched; each was found as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Region

end
-- ==== Proof.KernelIdealBody.lean ====
/-
  The kernel of `KernelIdeal` at one grid point, and the run of its launch. At a point the body reads a block of 512 rows
  of x, of the children's hidden states and of their cell states, and the whole joined weights, bias row and forget
  matrix; it overwrites the whole [512,128] block of each output: the new cell state
  c = i ⊙ u + Σₖ fₖ ⊙ cₖ and the new hidden state h = o ⊙ tanh c, the gates being the payload terms of the body's
  arithmetic. This module states that as a triple of the body, gives the launch its proof data (inputs' buffers hold
  their blocks, outputs' buffers hold those two terms of the blocks), and concludes the run of @main and the frame.
  Everything is stated at any float instance.
-/
import proofs.«114151_j15710990369454_2_alg».proof.Proof.KernelIdealEntry

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer is read and written whole -/

abbrev rRows : Rect S512x128 := Rect.unit (s := S512x128) ![0, 0] S512x128.size inb_S512x128_S512x128_0_0
abbrev rKids : Rect S512x8x128 := Rect.unit (s := S512x8x128) ![0, 0, 0] S512x8x128.size inb_S512x8x128_S512x8x128_0_0_0
abbrev rW4 : Rect S128x512 := Rect.unit (s := S128x512) ![0, 0] S128x512.size inb_S128x512_S128x512_0_0
abbrev rBias : Rect S1x512 := Rect.unit (s := S1x512) ![0, 0] S1x512.size inb_S1x512_S1x512_0_0
abbrev rW3 : Rect S128x384 := Rect.unit (s := S128x384) ![0, 0] S128x384.size inb_S128x384_S128x384_0_0
abbrev rWf : Rect S128x128 := Rect.unit (s := S128x128) ![0, 0] S128x128.size inb_S128x128_S128x128_0_0

/-! ## What the body leaves in each output buffer -/

/-- The new cell state of the block's 512 nodes, from the seven input blocks: i ⊙ u + Σₖ fₖ ⊙ cₖ. -/
def cellBlock (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : FVec F S512x128 .f32 :=
  k0_pay1 (k0_pay5 (View.ld x0 rRows) (View.ld x1 rKids) (View.ld x3 rW4) (View.ld x5 rW3) (View.ld x4 rBias))
    (k0_pay7 (View.ld x0 rRows) (View.ld x1 rKids) (View.ld x3 rW4) (View.ld x5 rW3) (View.ld x4 rBias))
    (k0_pay8 (View.ld x0 rRows) (View.ld x1 rKids) (View.ld x3 rW4) (View.ld x6 rWf) (View.ld x4 rBias))
    (View.ld x2 rKids)

/-- The new hidden state of the block's 512 nodes: o ⊙ tanh c. -/
def hiddenBlock (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : FVec F S512x128 .f32 :=
  k0_pay2 (k0_pay5 (View.ld x0 rRows) (View.ld x1 rKids) (View.ld x3 rW4) (View.ld x5 rW3) (View.ld x4 rBias))
    (k0_pay6 (View.ld x0 rRows) (View.ld x1 rKids) (View.ld x3 rW4) (View.ld x5 rW3) (View.ld x4 rBias))
    (k0_pay7 (View.ld x0 rRows) (View.ld x1 rKids) (View.ld x3 rW4) (View.ld x5 rW3) (View.ld x4 rBias))
    (k0_pay8 (View.ld x0 rRows) (View.ld x1 rKids) (View.ld x3 rW4) (View.ld x6 rWf) (View.ld x4 rBias))
    (View.ld x2 rKids)

/-- The hidden-state output's buffer after the body: its one store, of the whole block. -/
def out0_7 (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : Vec F S512x128 .f32 :=
  View.canon [⟨rRows, hiddenBlock x0 x1 x2 x3 x4 x5 x6⟩]

/-- The cell-state output's buffer after the body: its one store, of the whole block. -/
def out0_8 (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) : Vec F S512x128 .f32 :=
  View.canon [⟨rRows, cellBlock x0 x1 x2 x3 x4 x5 x6⟩]

/-- One store of the whole block covers the buffer. -/
theorem cover_rows (p0 : Vec F S512x128 .f32) (y : S512x128.Idx) :
    ∃ pc ∈ ([⟨rRows, p0⟩] : List (View.Piece (Elt F) S512x128 .f32)), y ∈ pc.1.set :=
  View.cover_of_tiled [⟨rRows, p0⟩] S512x128.size (by rfl) y

/-! ## The body's triple -/

set_option maxHeartbeats 4000000 in
/-- The body on whole staging buffers, the inputs' at contents `xW` and the outputs' at anything, runs to the
    continuation with the inputs' as they were and the outputs' at `out0_7` and `out0_8` of the inputs'. -/
theorem sound_kernel (c : Dev nD) (E : Set ℕ) (i : grid0.Coords) (arg1 : Memref sig .tc .vmem S512x128 .f32) (harg1 : arg1.IsWhole) (arg2 : Memref sig .tc .vmem S512x8x128 .f32) (harg2 : arg2.IsWhole) (arg3 : Memref sig .tc .vmem S512x8x128 .f32) (harg3 : arg3.IsWhole) (arg4 : Memref sig .tc .vmem S128x512 .bf16) (harg4 : arg4.IsWhole) (arg5 : Memref sig .tc .vmem S1x512 .f32) (harg5 : arg5.IsWhole) (arg6 : Memref sig .tc .vmem S128x384 .bf16) (harg6 : arg6.IsWhole) (arg7 : Memref sig .tc .vmem S128x128 .bf16) (harg7 : arg7.IsWhole) (arg8 : Memref sig .tc .vmem S512x128 .f32) (harg8 : arg8.IsWhole) (arg9 : Memref sig .tc .vmem S512x128 .f32) (harg9 : arg9.IsWhole)
    (x0 : Vec F S512x128 .f32) (x1 : Vec F S512x8x128 .f32) (x2 : Vec F S512x8x128 .f32) (x3 : Vec F S128x512 .bf16) (x4 : Vec F S1x512 .f32) (x5 : Vec F S128x384 .bf16) (x6 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__treelstm_kernel i arg1 harg1 arg2 harg2 arg3 harg3 arg4 harg4 arg5 harg5 arg6 harg6 arg7 harg7 arg8 harg8 arg9 harg9) K := by
  simp only [cc0__treelstm_kernel_eq_skeleton]; unfold cc0__treelstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The launch's proof data -/

/-- On core `c`: the arrays as the launch finds them; after the body at point `t` each input's buffer at its block,
    the hidden-state output's at `out0_7` and the cell-state output's at `out0_8` of the input blocks; nothing kept
    between points beyond what the launch itself keeps; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; what the launch keeps
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, faults nowhere, and ends with
    each window's array at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves its fifteen argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Region

end
-- ==== Proof.TreeCell.lean ====
/-
  The child-sum tree cell over the extended reals, index by index. For node n with eight children k and the 128
  hidden coordinates j:
    s(n,h)   = Σₖ child_h(n,k,h)                                   the children's summed hidden state
    g_W,b,U(n,j) = (Σ_d x(n,d)·W(d,j) + b(j)) + Σ_h s(n,h)·U(h,j)    a gate before its squashing
    i = σ(g_Wi,bi,Ui),  o = σ(g_Wo,bo,Uo),  u = tanh(g_Wu,bu,Uu)
    fₖ(n,j)  = σ(Σ_h child_h(n,k,h)·Uf(h,j) + (Σ_d x(n,d)·Wf(d,j) + bf(j)))   one forget gate per child
    c(n,j)   = i·u + Σₖ fₖ(n,j)·child_c(n,k,j),     h(n,j) = o·tanh c(n,j)
  with σ t = 1 / (1 + e^(−t)). Sums and products are the extended reals' own; nothing here needs the entries finite.
-/
import Idealize.ShloMosaic.PureOps.Ideal
import Idealize.ShloMosaic.PureOps.Ideal.Laws
import Idealize.ShloMosaic.Lib.ValueIdx

noncomputable section

namespace Cert.TreeCell

open Idealize.ShloMosaic Idealize.ShloMosaic.ValueIdx

/-- The shapes of the arrays: node rows, children, a weight matrix, a bias vector. -/
abbrev Rows : Shape := ⟨2, ![65536, 128]⟩
abbrev Kids : Shape := ⟨3, ![65536, 8, 128]⟩
abbrev Mat : Shape := ⟨2, ![128, 128]⟩
abbrev Bias : Shape := ⟨1, ![128]⟩

/-- Σ_d x(n,d)·W(d,j) + b(j): the input's projection with its bias. -/
def lin (x : Rows.Idx → EReal) (W : Mat.Idx → EReal) (b : Bias.Idx → EReal) (n : Fin 65536) (j : Fin 128) : EReal :=
  (∑ d : Fin 128, x (ix2 n d) * W (ix2 d j)) + b (ix1 j)

/-- Σₖ child_h(n,k,h): the children's summed hidden state. -/
def kidSum (ch : Kids.Idx → EReal) (n : Fin 65536) (h : Fin 128) : EReal :=
  ∑ k : Fin 8, ch (ix3 n k h)

/-- A gate before its squashing: the input's projection plus the summed hidden state's. -/
def pre (x : Rows.Idx → EReal) (ch : Kids.Idx → EReal) (W : Mat.Idx → EReal) (b : Bias.Idx → EReal) (U : Mat.Idx → EReal)
    (n : Fin 65536) (j : Fin 128) : EReal :=
  lin x W b n j + ∑ h : Fin 128, kidSum ch n h * U (ix2 h j)

/-- Child k's forget gate before its squashing: that child's own projection plus the input's. -/
def forgetPre (x : Rows.Idx → EReal) (ch : Kids.Idx → EReal) (Wf : Mat.Idx → EReal) (bf : Bias.Idx → EReal) (Uf : Mat.Idx → EReal)
    (n : Fin 65536) (k : Fin 8) (j : Fin 128) : EReal :=
  (∑ h : Fin 128, ch (ix3 n k h) * Uf (ix2 h j)) + lin x Wf bf n j

/-- The new cell state c(n,j) = i·u + Σₖ fₖ·child_c(n,k,j). -/
def cellState (x : Rows.Idx → EReal) (ch cc : Kids.Idx → EReal) (Wi : Mat.Idx → EReal) (bi : Bias.Idx → EReal) (Ui : Mat.Idx → EReal)
    (Wu : Mat.Idx → EReal) (bu : Bias.Idx → EReal) (Uu : Mat.Idx → EReal) (Wf : Mat.Idx → EReal) (bf : Bias.Idx → EReal) (Uf : Mat.Idx → EReal)
    (n : Fin 65536) (j : Fin 128) : EReal :=
  Ideal.logistic (pre x ch Wi bi Ui n j) * Ideal.tanh (pre x ch Wu bu Uu n j)
    + ∑ k : Fin 8, Ideal.logistic (forgetPre x ch Wf bf Uf n k j) * cc (ix3 n k j)

/-- The new hidden state h(n,j) = o·tanh c(n,j). -/
def hiddenState (x : Rows.Idx → EReal) (ch cc : Kids.Idx → EReal) (Wi : Mat.Idx → EReal) (bi : Bias.Idx → EReal) (Ui : Mat.Idx → EReal)
    (Wo : Mat.Idx → EReal) (bo : Bias.Idx → EReal) (Uo : Mat.Idx → EReal)
    (Wu : Mat.Idx → EReal) (bu : Bias.Idx → EReal) (Uu : Mat.Idx → EReal) (Wf : Mat.Idx → EReal) (bf : Bias.Idx → EReal) (Uf : Mat.Idx → EReal)
    (n : Fin 65536) (j : Fin 128) : EReal :=
  Ideal.logistic (pre x ch Wo bo Uo n j) * Ideal.tanh (cellState x ch cc Wi bi Ui Wu bu Uu Wf bf Uf n j)

/-- The two results as whole arrays. -/
def cellArr (x : Rows.Idx → EReal) (ch cc : Kids.Idx → EReal) (Wi : Mat.Idx → EReal) (bi : Bias.Idx → EReal) (Ui : Mat.Idx → EReal)
    (Wu : Mat.Idx → EReal) (bu : Bias.Idx → EReal) (Uu : Mat.Idx → EReal) (Wf : Mat.Idx → EReal) (bf : Bias.Idx → EReal) (Uf : Mat.Idx → EReal) :
    Rows.Idx → EReal :=
  fun i => cellState x ch cc Wi bi Ui Wu bu Uu Wf bf Uf (i 0) (i 1)

def hiddenArr (x : Rows.Idx → EReal) (ch cc : Kids.Idx → EReal) (Wi : Mat.Idx → EReal) (bi : Bias.Idx → EReal) (Ui : Mat.Idx → EReal)
    (Wo : Mat.Idx → EReal) (bo : Bias.Idx → EReal) (Uo : Mat.Idx → EReal)
    (Wu : Mat.Idx → EReal) (bu : Bias.Idx → EReal) (Uu : Mat.Idx → EReal) (Wf : Mat.Idx → EReal) (bf : Bias.Idx → EReal) (Uf : Mat.Idx → EReal) :
    Rows.Idx → EReal :=
  fun i => hiddenState x ch cc Wi bi Ui Wo bo Uo Wu bu Uu Wf bf Uf (i 0) (i 1)

/-- The float word of 1.0 is the real 1. -/
theorem one_word : Ideal.ofBits .f32 0x3F800000#32 = 1 := by
  simp [Ideal.ofBits, Ideal.ieee, -EReal.coe_mul]; norm_num

/-- The squashing σ spelt with a division: 1 / (1 + e^(−t)), the numerator and the summand the float word of 1.0. -/
theorem logistic_spelt (t : EReal) :
    Ideal.div (Ideal.ofBits .f32 0x3F800000#32) (Ideal.ofBits .f32 0x3F800000#32 + Ideal.exp (-t)) = Ideal.logistic t := by
  rw [one_word]; rfl

end Cert.TreeCell

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«114151_j15710990369454_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«114151_j15710990369454_2_alg».proof.Proof.LibDenseRows
import proofs.«114151_j15710990369454_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibLeadFold.lean ====
/-
  General lemmas for kernels that fold the two leading axes of an [a, b, n] array into one of length m = a · b before a
  matrix product and unfold them afterwards, that take a maximum along the last axis of an array, and that repeat a
  vector of length n over an [a, b, n] array; each read at one index.

  * `shapeCast_abn_mn_apply`: an [a, b, n] array recast as [m, n] reads, at (p · b + q, k), the array at (p, q, k).
  * `shapeCast_mn_abn_apply`: an [m, n] array recast as [a, b, n] reads, at (p, q, k), the array at (p · b + q, k).
  * `shapeCast_abpq_mpq_apply`: an [a, b, p, q] array recast as [m, p, q] reads, at (u · b + v, i, k), the array at (u, v, i, k).
  * `shapeCast_mpq_abpq_apply`: an [m, p, q] array recast as [a, b, p, q] reads, at (u, v, i, k), the array at (u · b + v, i, k).
  * `lastMax3_apply`: at the exact (extended-real) instance, the maximum of an [a, g, n] array along its last axis is,
    at (p, gi), the fold of max from the accumulator's value over k of the array at (p, gi, k).
  * `hostLastMax4_apply`: the host's one-operand reduce with a maximum body along the last axis of an [a, b, c, n]
    array is, at (p, q, r), the fold of max from the initial value over k of the array at (p, q, r, k).
  * `shapeCast_n_11n_apply`: a vector of length n recast as [1, 1, n] reads, at (u, v, k), the vector at k.
  * `broadcastTo_11n_abn_apply`: a [1, 1, n] array repeated over [a, b, n] reads, at (p, q, k), the array at (0, 0, k).
-/
import Idealize.ShloMosaic.Lib.ValueIdx
import Idealize.ShloMosaic.Lib.Pipeline.Value
import Idealize.ShloMosaic.PureOps.Ideal.Laws

noncomputable section

open scoped BigOperators

namespace Cert.LeadFold

open Idealize.ShloMosaic Idealize.ShloMosaic.ValueIdx

variable {α : Type} {a b c g m n : ℕ}

/-- An [a, b, n] array recast as [m, n] (m = a · b): row p · b + q, column k holds the entry at (p, q, k), the two
    indices having one row-major position. -/
theorem shapeCast_abn_mn_apply (x : (⟨3, ![a, b, n]⟩ : Shape).Idx → α) (h : (⟨3, ![a, b, n]⟩ : Shape).ShapeCasts ⟨2, ![m, n]⟩)
    (r : Fin m) (k : Fin n) (p : Fin a) (q : Fin b) (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- An [m, n] array recast as [a, b, n] (m = a · b): position (p, q, k) holds the entry at row p · b + q, column k. -/
theorem shapeCast_mn_abn_apply (x : (⟨2, ![m, n]⟩ : Shape).Idx → α) (h : (⟨2, ![m, n]⟩ : Shape).ShapeCasts ⟨3, ![a, b, n]⟩)
    (p : Fin a) (q : Fin b) (k : Fin n) (r : Fin m) (hr : r.val = p.val * b + q.val) :
    shapeCast ⟨3, ![a, b, n]⟩ x h (ix3 p q k) = x (ix2 r k) :=
  shapeCast_apply x h _ _ (by
    rw [Shape.rowMajor_val_two, Shape.rowMajor_val_three]
    show r.val * n + k.val = (p.val * b + q.val) * n + k.val
    rw [hr])

/-- An [a, b, p, q] array recast as [m, p, q] (m = a · b): position (u · b + v, i, k) holds the entry at (u, v, i, k). -/
theorem shapeCast_abpq_mpq_apply {p q : ℕ} (x : (⟨4, ![a, b, p, q]⟩ : Shape).Idx → α)
    (h : (⟨4, ![a, b, p, q]⟩ : Shape).ShapeCasts ⟨3, ![m, p, q]⟩)
    (r : Fin m) (i : Fin p) (k : Fin q) (u : Fin a) (v : Fin b) (hr : r.val = u.val * b + v.val) :
    shapeCast ⟨3, ![m, p, q]⟩ x h (ix3 r i k) = x (ix4 u v i k) :=
  shapeCast_apply x h _ _ (by
    rw [Shape.rowMajor_val_four, Shape.rowMajor_val_three]
    show ((u.val * b + v.val) * p + i.val) * q + k.val = (r.val * p + i.val) * q + k.val
    rw [hr])

/-- An [m, p, q] array recast as [a, b, p, q] (m = a · b): position (u, v, i, k) holds the entry at (u · b + v, i, k). -/
theorem shapeCast_mpq_abpq_apply {p q : ℕ} (x : (⟨3, ![m, p, q]⟩ : Shape).Idx → α)
    (h : (⟨3, ![m, p, q]⟩ : Shape).ShapeCasts ⟨4, ![a, b, p, q]⟩)
    (u : Fin a) (v : Fin b) (i : Fin p) (k : Fin q) (r : Fin m) (hr : r.val = u.val * b + v.val) :
    shapeCast ⟨4, ![a, b, p, q]⟩ x h (ix4 u v i k) = x (ix3 r i k) :=
  shapeCast_apply x h _ _ (by
    rw [Shape.rowMajor_val_three, Shape.rowMajor_val_four]
    show (r.val * p + i.val) * q + k.val = ((u.val * b + v.val) * p + i.val) * q + k.val
    rw [hr])

/-- The maximum of an [a, g, n] array along its last axis, at (p, gi): the fold of max, from the accumulator's value,
    over k of the array at (p, gi, k). -/
theorem lastMax3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.maximumf.neutral φ hφ)
    (p : Fin a) (gi : Fin g) :
    multiReduction .maximumf [2] ⟨2, ![a, g]⟩ src acc h hφ hacc (ix2 p gi)
      = (Finset.univ : Finset (Fin n)).fold max (FloatOps.ofBits φ acc) (fun k => src (ix3 p gi k)) := by
  refine (Ideal.multiReduction_maximumf_single src acc h hφ hacc (ix2 p gi)).trans ?_
  refine congrArg (fun f : Fin n → Ideal φ => (Finset.univ : Finset (Fin n)).fold max (FloatOps.ofBits φ acc) f)
    (funext fun k => congrArg src (funext fun d => Fin.ext ?_))
  rw [h.lift_val]
  match d with
  | ⟨0, _⟩ => rfl
  | ⟨1, _⟩ => rfl
  | ⟨2, _⟩ => rfl

/-- The host's reduce with a maximum body along the last axis of an [a, b, c, n] array, at (p, q, r): the fold of max,
    from the initial value, over k of the array at (p, q, r, k). -/
theorem hostLastMax4_apply {φ : FTy} {u : Shape} (x : FVec Ideal ⟨4, ![a, b, c, n]⟩ φ) (init : FVec Ideal u φ)
    (h' : (⟨4, ![a, b, c, n]⟩ : Shape).ReducesTo [3] ⟨3, ![a, b, c]⟩) (h : (⟨4, ![a, b, c, n]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin n)).fold max (init (Shape.Idx.first hu)) (fun k => x (ix4 p q r k)) := by
  rw [Host.reduce_eq_fold_single FloatOps.maximumf x init h' h hu]
  refine congrArg (fun f : Fin n → Ideal φ => (Finset.univ : Finset (Fin n)).fold max (init (Shape.Idx.first hu)) f)
    (funext fun k => congrArg x (funext fun d => Fin.ext ?_))
  rw [h.lift_val]
  match d with
  | ⟨0, _⟩ => rfl
  | ⟨1, _⟩ => rfl
  | ⟨2, _⟩ => rfl
  | ⟨3, _⟩ => rfl

/-- A vector of length n recast as [1, 1, n] reads, at (u, v, k), the vector at k, whatever the unit coordinates. -/
theorem shapeCast_n_11n_apply (x : (⟨1, ![n]⟩ : Shape).Idx → α) (h : (⟨1, ![n]⟩ : Shape).ShapeCasts ⟨3, ![1, 1, n]⟩)
    (u v : Fin 1) (k : Fin n) : shapeCast ⟨3, ![1, 1, n]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * n + k.val
    simp [hu, hv])

/-- A [1, 1, n] array repeated over [a, b, n] reads, at (p, q, k), the array at (0, 0, k). -/
theorem broadcastTo_11n_abn_apply (x : (⟨3, ![1, 1, n]⟩ : Shape).Idx → α) (h : (⟨3, ![1, 1, n]⟩ : Shape).Broadcasts ⟨3, ![a, b, n]⟩)
    (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

end Cert.LeadFold

end
-- ==== Proof.LibMidAxis.lean ====
/-
  Two layout operations read at an index, generic in the sizes: an [a, b] array recast as [a, 1, b] (a unit axis put in
  the middle), and an [a, 1, b] array repeated along that unit axis to [a, g, b]. Together they are
  `v[:, None, :]` broadcast against an [a, g, b] array: position (p, k, c) holds v(p, c) for every k.
-/
import Idealize.ShloMosaic.Lib.ValueIdx
import Idealize.ShloMosaic.Lib.Pipeline.Value

namespace Cert.MidAxis

open Idealize.ShloMosaic Idealize.ShloMosaic.ValueIdx

variable {α : Type} {a g b : ℕ}

/-- An [a, b] array recast as [a, 1, b]: position (p, 0, c) holds the entry at (p, c), the two indices having one
    row-major position. -/
theorem shapeCast_ab_a1b_apply (x : (⟨2, ![a, b]⟩ : Shape).Idx → α) (h : (⟨2, ![a, b]⟩ : Shape).ShapeCasts ⟨3, ![a, 1, b]⟩)
    (p : Fin a) (c : Fin b) :
    shapeCast ⟨3, ![a, 1, b]⟩ x h (ix3 p (0 : Fin 1) c) = x (ix2 p c) :=
  shapeCast_apply x h _ _ (by
    rw [Shape.rowMajor_val_two, Shape.rowMajor_val_three]
    show p.val * b + c.val = (p.val * 1 + 0) * b + c.val
    rw [Nat.mul_one, Nat.add_zero])

/-- An [a, 1, b] array repeated along its unit axis to [a, g, b]: position (p, k, c) holds the entry at (p, 0, c). -/
theorem broadcastTo_a1b_agb_apply (v : (⟨3, ![a, 1, b]⟩ : Shape).Idx → α) (h : (⟨3, ![a, 1, b]⟩ : Shape).Broadcasts ⟨3, ![a, g, b]⟩)
    (p : Fin a) (k : Fin g) (c : Fin b) :
    broadcastTo ⟨3, ![a, g, b]⟩ v h (ix3 p k c) = v (ix3 p (0 : Fin 1) c) := by
  refine broadcastTo_apply v h (ix3 p k c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- The two together: `v[:, None, :]` against an [a, g, b] array reads v(p, c) at (p, k, c). -/
theorem keepMid_apply (x : (⟨2, ![a, b]⟩ : Shape).Idx → α) (hc : (⟨2, ![a, b]⟩ : Shape).ShapeCasts ⟨3, ![a, 1, b]⟩)
    (hb : (⟨3, ![a, 1, b]⟩ : Shape).Broadcasts ⟨3, ![a, g, b]⟩) (p : Fin a) (k : Fin g) (c : Fin b) :
    broadcastTo ⟨3, ![a, g, b]⟩ (shapeCast ⟨3, ![a, 1, b]⟩ x hc) hb (ix3 p k c) = x (ix2 p c) :=
  (broadcastTo_a1b_agb_apply _ hb p k c).trans (shapeCast_ab_a1b_apply x hc p c)

end Cert.MidAxis
-- ==== Proof.KernelCell.lean ====
/-
  The kernel body's arithmetic at one entry, over the extended reals. With the seven blocks the body loads at a grid
  point — 512 rows of x, of the children's hidden and cell states, the joined input-side weights [128,512] and bias
  row [1,512], the joined hidden-side weights [128,384] and the forget matrix [128,128] — each payload term of the
  body is read at a row p (and child k) and a hidden coordinate j. A product against joined weights read at a column
  is the product against the one matrix that column came from, so no law beyond reading sums at an index is used
  until the blocks are identified with the arrays; then row p of the block at point t is node 512·t + p and the
  two stored payloads are the tree cell's c and h at that node.
-/
import proofs.«114151_j15710990369454_2_alg».proof.Proof.Gen.KernelIdeal.Skeleton
import proofs.«114151_j15710990369454_2_alg».proof.Proof.TreeCell
import proofs.«114151_j15710990369454_2_alg».proof.Proof.LibPlainLayers
import proofs.«114151_j15710990369454_2_alg».proof.Proof.LibLeadFold
import proofs.«114151_j15710990369454_2_alg».proof.Proof.LibMidAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Cell

open Idealize.ShloMosaic Idealize.ShloMosaic.ValueIdx Cert.KernelIdeal Cert.KernelIdeal.Gen

/-! ## The two fused projections -/

/-- The input-side projection against the joined weights, with the joined bias row, at (p, q):
    Σ_d x(p,d)·W(d,q) + b(0,q). -/
theorem inputSide_at (v0 : Vec Ideal S512x128 .f32) (v5 : Vec Ideal S128x512 .bf16) (v11 : Vec Ideal S1x512 .f32)
    (p : Fin 512) (q : Fin 512) :
    k0_pay3 (F := Ideal) v0 v5 v11 (ix2 p q) = (∑ d : Fin 128, (v0 (ix2 p d) : EReal) * v5 (ix2 d q)) + v11 (ix2 (0 : Fin 1) q) := by
  unfold k0_pay3
  refine congrArg₂ (· + ·) ((Cert.PlainLayers.plainMM_of_eq _ rfl none _ _ p q).trans ?_) ?_
  · refine Finset.sum_congr rfl fun d _ => ?_
    rw [shapeCast_self]; rfl
  · exact (broadcastTo_1b_ab_apply _ _ p q).trans (congrFun (shapeCast_self v11 _) _)

/-- The children's hidden states summed over the eight children, at (p, h). -/
theorem kidSum_at (v2 : Vec Ideal S512x8x128 .f32) (p : Fin 512) (h : Fin 128) :
    multiReduction (F := Ideal) .add [1] S512x128 v2 0x00000000#32 reduces_S512x8x128_S512x128 (.inl rfl) rfl (ix2 p h)
      = ∑ k : Fin 8, (v2 (ix3 p k h) : EReal) := by
  refine (Ideal.multiReduction_add_single v2 0x00000000#32 reduces_S512x8x128_S512x128 (.inl rfl) rfl (ix2 p h)).trans ?_
  refine Finset.sum_congr rfl fun k _ => ?_
  exact congrArg v2 (funext fun a => Fin.ext (by match a with | ⟨0, _⟩ => rfl | ⟨1, _⟩ => rfl | ⟨2, _⟩ => rfl))

/-- The hidden-side projection of the summed children against the joined weights, at (p, q):
    Σ_h (Σₖ child_h(p,k,h))·U(h,q). -/
theorem hiddenSide_at (v2 : Vec Ideal S512x8x128 .f32) (v7 : Vec Ideal S128x384 .bf16) (p : Fin 512) (q : Fin 384) :
    k0_pay4 (F := Ideal) v2 v7 (ix2 p q) = ∑ h : Fin 128, (∑ k : Fin 8, (v2 (ix3 p k h) : EReal)) * v7 (ix2 h q) := by
  unfold k0_pay4
  refine (Cert.PlainLayers.plainMM_of_eq _ rfl none _ _ p q).trans ?_
  refine Finset.sum_congr rfl fun h _ => ?_
  rw [shapeCast_self]
  exact congrArg (· * v7 (ix2 h q)) (kidSum_at v2 p h)

/-! ## Columns of the joined matrices -/

/-- Column o + j of a joined matrix of N columns (o the offset of the piece the column came from). -/
def colAt (o : ℕ) (j : Fin 128) (N : ℕ) (h : o + 128 ≤ N) : Fin N := ⟨o + j.val, by have := j.isLt; omega⟩

/-- A gate before its squashing, read off the two fused projections at the piece with offset o:
    the input side at column o + j plus the hidden side at column o + j. -/
theorem preGate_at (A : FVec Ideal S512x512 .f32) (B : FVec Ideal S512x384 .f32) (o : ℕ)
    (hA : S512x512.Slices ![0, o] S512x128) (hB : S512x384.Slices ![0, o] S512x128) (h4 : o + 128 ≤ 512) (h3 : o + 128 ≤ 384)
    (p : Fin 512) (j : Fin 128) :
    addf (extractStridedSlice S512x128 ![0, o] A hA) (extractStridedSlice S512x128 ![0, o] B hB) (ix2 p j)
      = (A (ix2 p (colAt o j 512 h4)) : EReal) + B (ix2 p (colAt o j 384 h3)) :=
  congrArg₂ (· + ·) (slice2_axis1_apply o A hA p j (colAt o j 512 h4) rfl) (slice2_axis1_apply o B hB p j (colAt o j 384 h3) rfl)

/-! ## The gates -/

/-- The input gate i at (p, j). -/
theorem gateI_at (v0 : Vec Ideal S512x128 .f32) (v2 : Vec Ideal S512x8x128 .f32) (v5 : Vec Ideal S128x512 .bf16) (v7 : Vec Ideal S128x384 .bf16)
    (v11 : Vec Ideal S1x512 .f32) (p : Fin 512) (j : Fin 128) :
    k0_pay5 (F := Ideal) v0 v2 v5 v7 v11 (ix2 p j)
      = Ideal.logistic (k0_pay3 (F := Ideal) v0 v5 v11 (ix2 p (colAt 0 j 512 (by norm_num))) + k0_pay4 (F := Ideal) v2 v7 (ix2 p (colAt 0 j 384 (by norm_num)))) := by
  unfold k0_pay5
  exact congrArg Ideal.logistic (preGate_at _ _ 0 _ _ _ _ p j)

/-- The output gate o at (p, j). -/
theorem gateO_at (v0 : Vec Ideal S512x128 .f32) (v2 : Vec Ideal S512x8x128 .f32) (v5 : Vec Ideal S128x512 .bf16) (v7 : Vec Ideal S128x384 .bf16)
    (v11 : Vec Ideal S1x512 .f32) (p : Fin 512) (j : Fin 128) :
    k0_pay6 (F := Ideal) v0 v2 v5 v7 v11 (ix2 p j)
      = Ideal.logistic (k0_pay3 (F := Ideal) v0 v5 v11 (ix2 p (colAt 128 j 512 (by norm_num))) + k0_pay4 (F := Ideal) v2 v7 (ix2 p (colAt 128 j 384 (by norm_num)))) := by
  unfold k0_pay6
  exact congrArg Ideal.logistic (preGate_at _ _ 128 _ _ _ _ p j)

/-- The update u at (p, j). -/
theorem gateU_at (v0 : Vec Ideal S512x128 .f32) (v2 : Vec Ideal S512x8x128 .f32) (v5 : Vec Ideal S128x512 .bf16) (v7 : Vec Ideal S128x384 .bf16)
    (v11 : Vec Ideal S1x512 .f32) (p : Fin 512) (j : Fin 128) :
    k0_pay7 (F := Ideal) v0 v2 v5 v7 v11 (ix2 p j)
      = Ideal.tanh (k0_pay3 (F := Ideal) v0 v5 v11 (ix2 p (colAt 256 j 512 (by norm_num))) + k0_pay4 (F := Ideal) v2 v7 (ix2 p (colAt 256 j 384 (by norm_num)))) := by
  unfold k0_pay7
  exact congrArg Ideal.tanh (preGate_at _ _ 256 _ _ _ _ p j)

/-- Child k's forget gate at (p, k, j): that child's hidden state against the forget matrix — through the
    [512,8,128] ↔ [4096,128] relayout, row 8·p + k — plus the input side's fourth piece, the same for every child. -/
theorem forget_at (v0 : Vec Ideal S512x128 .f32) (v2 : Vec Ideal S512x8x128 .f32) (v5 : Vec Ideal S128x512 .bf16) (v9 : Vec Ideal S128x128 .bf16)
    (v11 : Vec Ideal S1x512 .f32) (p : Fin 512) (k : Fin 8) (j : Fin 128) :
    k0_pay8 (F := Ideal) v0 v2 v5 v9 v11 (ix3 p k j)
      = Ideal.logistic ((∑ h : Fin 128, (v2 (ix3 p k h) : EReal) * v9 (ix2 h j))
          + k0_pay3 (F := Ideal) v0 v5 v11 (ix2 p (colAt 384 j 512 (by norm_num)))) := by
  unfold k0_pay8
  have hr : (⟨p.val * 8 + k.val, by have := p.isLt; have := k.isLt; omega⟩ : Fin 4096).val = p.val * 8 + k.val := rfl
  refine congrArg Ideal.logistic (congrArg₂ (· + ·) ?_ ?_)
  · refine (Cert.LeadFold.shapeCast_mn_abn_apply _ _ p k j _ hr).trans ?_
    refine (Cert.PlainLayers.plainMM_of_eq _ rfl none _ _ _ j).trans ?_
    refine Finset.sum_congr rfl fun h _ => ?_
    rw [shapeCast_self]
    exact congrArg (· * v9 (ix2 h j)) (Cert.LeadFold.shapeCast_abn_mn_apply v2 _ _ h p k hr)
  · exact (Cert.MidAxis.keepMid_apply _ _ _ p k j).trans (slice2_axis1_apply 384 _ _ p j (colAt 384 j 512 (by norm_num)) rfl)

/-! ## The two stored payloads -/

/-- The new cell state at (p, j): i·u + Σₖ fₖ·child_c(p,k,j). -/
theorem cell_at (g25 g29 : FVec Ideal S512x128 .f32) (f37 : FVec Ideal S512x8x128 .f32) (v38 : Vec Ideal S512x8x128 .f32) (p : Fin 512) (j : Fin 128) :
    k0_pay1 (F := Ideal) g25 g29 f37 v38 (ix2 p j)
      = (g25 (ix2 p j) : EReal) * g29 (ix2 p j) + ∑ k : Fin 8, (f37 (ix3 p k j) : EReal) * v38 (ix3 p k j) := by
  unfold k0_pay1
  refine congrArg₂ (· + ·) rfl ?_
  refine (Ideal.multiReduction_add_single _ 0x00000000#32 reduces_S512x8x128_S512x128 (.inl rfl) rfl (ix2 p j)).trans ?_
  refine Finset.sum_congr rfl fun k _ => ?_
  exact congrArg (fun i => (f37 i : EReal) * v38 i) (funext fun a => Fin.ext (by match a with | ⟨0, _⟩ => rfl | ⟨1, _⟩ => rfl | ⟨2, _⟩ => rfl))

/-- The new hidden state at (p, j): o·tanh c. -/
theorem hidden_at (g25 g27 g29 : FVec Ideal S512x128 .f32) (f37 : FVec Ideal S512x8x128 .f32) (v38 : Vec Ideal S512x8x128 .f32) (p : Fin 512) (j : Fin 128) :
    k0_pay2 (F := Ideal) g25 g27 g29 f37 v38 (ix2 p j)
      = (g27 (ix2 p j) : EReal) * Ideal.tanh (k0_pay1 (F := Ideal) g25 g29 f37 v38 (ix2 p j)) := rfl

/-! ## The blocks as pieces of the arrays -/

open Cert.TreeCell in
/-- The four resident blocks are the weights: the joined input-side matrix holds Wi, Wo, Wu, Wf at column offsets
    0, 128, 256, 384, the joined hidden-side matrix Ui, Uo, Uu at 0, 128, 256, the bias row bi, bo, bu, bf at
    0, 128, 256, 384, and the forget matrix is Uf. -/
structure Weights (v5 : Vec Ideal S128x512 .bf16) (v7 : Vec Ideal S128x384 .bf16) (v9 : Vec Ideal S128x128 .bf16) (v11 : Vec Ideal S1x512 .f32)
    (Wi Ui Wo Uo Wu Uu Wf Uf : Mat.Idx → EReal) (bi bo bu bf : Bias.Idx → EReal) : Prop where
  wi : ∀ (d j : Fin 128), (v5 (ix2 d (colAt 0 j 512 (by norm_num))) : EReal) = Wi (ix2 d j)
  wo : ∀ (d j : Fin 128), (v5 (ix2 d (colAt 128 j 512 (by norm_num))) : EReal) = Wo (ix2 d j)
  wu : ∀ (d j : Fin 128), (v5 (ix2 d (colAt 256 j 512 (by norm_num))) : EReal) = Wu (ix2 d j)
  wf : ∀ (d j : Fin 128), (v5 (ix2 d (colAt 384 j 512 (by norm_num))) : EReal) = Wf (ix2 d j)
  ui : ∀ (h j : Fin 128), (v7 (ix2 h (colAt 0 j 384 (by norm_num))) : EReal) = Ui (ix2 h j)
  uo : ∀ (h j : Fin 128), (v7 (ix2 h (colAt 128 j 384 (by norm_num))) : EReal) = Uo (ix2 h j)
  uu : ∀ (h j : Fin 128), (v7 (ix2 h (colAt 256 j 384 (by norm_num))) : EReal) = Uu (ix2 h j)
  uf : ∀ (h j : Fin 128), (v9 (ix2 h j) : EReal) = Uf (ix2 h j)
  bi : ∀ (j : Fin 128), (v11 (ix2 (0 : Fin 1) (colAt 0 j 512 (by norm_num))) : EReal) = bi (ix1 j)
  bo : ∀ (j : Fin 128), (v11 (ix2 (0 : Fin 1) (colAt 128 j 512 (by norm_num))) : EReal) = bo (ix1 j)
  bu : ∀ (j : Fin 128), (v11 (ix2 (0 : Fin 1) (colAt 256 j 512 (by norm_num))) : EReal) = bu (ix1 j)
  bf : ∀ (j : Fin 128), (v11 (ix2 (0 : Fin 1) (colAt 384 j 512 (by norm_num))) : EReal) = bf (ix1 j)

open Cert.TreeCell in
/-- Row p of the three streamed blocks is node n of the arrays. -/
structure Row (v0 : Vec Ideal S512x128 .f32) (v2 v38 : Vec Ideal S512x8x128 .f32) (X : Rows.Idx → EReal) (CH CC : Kids.Idx → EReal)
    (p : Fin 512) (n : Fin 65536) : Prop where
  x : ∀ d : Fin 128, (v0 (ix2 p d) : EReal) = X (ix2 n d)
  ch : ∀ (k : Fin 8) (h : Fin 128), (v2 (ix3 p k h) : EReal) = CH (ix3 n k h)
  cc : ∀ (k : Fin 8) (j : Fin 128), (v38 (ix3 p k j) : EReal) = CC (ix3 n k j)

section
open Cert.TreeCell

variable {v0 : Vec Ideal S512x128 .f32} {v2 v38 : Vec Ideal S512x8x128 .f32} {v5 : Vec Ideal S128x512 .bf16} {v7 : Vec Ideal S128x384 .bf16}
  {v9 : Vec Ideal S128x128 .bf16} {v11 : Vec Ideal S1x512 .f32}
  {X : Rows.Idx → EReal} {CH CC : Kids.Idx → EReal} {Wi Ui Wo Uo Wu Uu Wf Uf : Mat.Idx → EReal} {bi bo bu bf : Bias.Idx → EReal}
  {p : Fin 512} {n : Fin 65536}

/-- The input side at a column that came from W, b is the input's projection at the node. -/
theorem inputSide_node (hr : Row v0 v2 v38 X CH CC p n) (W : Mat.Idx → EReal) (b : Bias.Idx → EReal) (q : Fin 512) (j : Fin 128)
    (hW : ∀ d : Fin 128, (v5 (ix2 d q) : EReal) = W (ix2 d j)) (hb : (v11 (ix2 (0 : Fin 1) q) : EReal) = b (ix1 j)) :
    k0_pay3 (F := Ideal) v0 v5 v11 (ix2 p q) = lin X W b n j := by
  refine (inputSide_at v0 v5 v11 p q).trans ?_
  unfold lin
  refine congrArg₂ (· + ·) (Finset.sum_congr rfl fun d _ => ?_) hb
  rw [hr.x d, hW d]

/-- The hidden side at a column that came from U is the summed children's projection at the node. -/
theorem hiddenSide_node (hr : Row v0 v2 v38 X CH CC p n) (U : Mat.Idx → EReal) (q : Fin 384) (j : Fin 128)
    (hU : ∀ h : Fin 128, (v7 (ix2 h q) : EReal) = U (ix2 h j)) :
    k0_pay4 (F := Ideal) v2 v7 (ix2 p q) = ∑ h : Fin 128, kidSum CH n h * U (ix2 h j) := by
  refine (hiddenSide_at v2 v7 p q).trans (Finset.sum_congr rfl fun h _ => ?_)
  rw [hU h]
  unfold kidSum
  exact congrArg (· * U (ix2 h j)) (Finset.sum_congr rfl fun k _ => hr.ch k h)

/-- The stored cell-state payload at row p is the tree cell's c at node n. -/
theorem cell_node (hw : Weights v5 v7 v9 v11 Wi Ui Wo Uo Wu Uu Wf Uf bi bo bu bf) (hr : Row v0 v2 v38 X CH CC p n) (j : Fin 128) :
    k0_pay1 (F := Ideal) (k0_pay5 v0 v2 v5 v7 v11) (k0_pay7 v0 v2 v5 v7 v11) (k0_pay8 v0 v2 v5 v9 v11) v38 (ix2 p j)
      = cellState X CH CC Wi bi Ui Wu bu Uu Wf bf Uf n j := by
  refine (cell_at _ _ _ v38 p j).trans ?_
  unfold cellState
  refine congrArg₂ (· + ·) (congrArg₂ (· * ·) ?_ ?_) (Finset.sum_congr rfl fun k _ => ?_)
  · refine (gateI_at v0 v2 v5 v7 v11 p j).trans (congrArg Ideal.logistic ?_)
    unfold pre
    exact congrArg₂ (· + ·) (inputSide_node hr Wi bi _ j (fun d => hw.wi d j) (hw.bi j)) (hiddenSide_node hr Ui _ j (fun h => hw.ui h j))
  · refine (gateU_at v0 v2 v5 v7 v11 p j).trans (congrArg Ideal.tanh ?_)
    unfold pre
    exact congrArg₂ (· + ·) (inputSide_node hr Wu bu _ j (fun d => hw.wu d j) (hw.bu j)) (hiddenSide_node hr Uu _ j (fun h => hw.uu h j))
  · refine congrArg₂ (· * ·) ((forget_at v0 v2 v5 v9 v11 p k j).trans (congrArg Ideal.logistic ?_)) (hr.cc k j)
    unfold forgetPre
    refine congrArg₂ (· + ·) (Finset.sum_congr rfl fun h _ => ?_) (inputSide_node hr Wf bf _ j (fun d => hw.wf d j) (hw.bf j))
    rw [hr.ch k h, hw.uf h j]

/-- The stored hidden-state payload at row p is the tree cell's h at node n. -/
theorem hidden_node (hw : Weights v5 v7 v9 v11 Wi Ui Wo Uo Wu Uu Wf Uf bi bo bu bf) (hr : Row v0 v2 v38 X CH CC p n) (j : Fin 128) :
    k0_pay2 (F := Ideal) (k0_pay5 v0 v2 v5 v7 v11) (k0_pay6 v0 v2 v5 v7 v11) (k0_pay7 v0 v2 v5 v7 v11) (k0_pay8 v0 v2 v5 v9 v11) v38 (ix2 p j)
      = hiddenState X CH CC Wi bi Ui Wo bo Uo Wu bu Uu Wf bf Uf n j := by
  refine (hidden_at _ _ _ _ v38 p j).trans ?_
  unfold hiddenState
  refine congrArg₂ (· * ·) ?_ (congrArg Ideal.tanh (cell_node hw hr j))
  refine (gateO_at v0 v2 v5 v7 v11 p j).trans (congrArg Ideal.logistic ?_)
  unfold pre
  exact congrArg₂ (· + ·) (inputSide_node hr Wo bo _ j (fun d => hw.wo d j) (hw.bo j)) (hiddenSide_node hr Uo _ j (fun h => hw.uo h j))

end

end Cert.KernelIdeal.Cell

end
-- ==== Proof.KernelIdealValue.lean ====
/-
  The two arrays the idealized kernel ends with, as whole-array functions of its arguments. The launch's run leaves
  each output array at what its 128 grid points wrote back; point t writes rows 512·t … 512·t+511, so the blocks tile
  the array. At point t the three streamed blocks are those rows of x, child_h and child_c, and the four resident
  blocks are the joined weights the host lines prepared: Wi, Wo, Wu, Wf side by side, Ui, Uo, Uu side by side, the
  four biases end to end as one row, and Uf. Hence what point t writes back is rows 512·t … of the tree cell's h and
  c, and the two arrays are the tree cell's h and c of the arguments.
-/
import proofs.«114151_j15710990369454_2_alg».proof.Proof.KernelIdealBody
import proofs.«114151_j15710990369454_2_alg».proof.Proof.KernelCell
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Region Cert.KernelIdeal.Cell Cert.TreeCell

variable (m : (ℓ : Loc nD τ sig) → Buf (Elt Ideal) ℓ) (ρ : Dev nD → PrngReg)

/-! ## What the launch finds in the buffers the host lines wrote -/

/-- The joined input-side weights: Wi, Wo, Wu, Wf side by side (the change of float format is the identity here). -/
theorem V_joinedW (c : Dev nD) :
    (V m c main_v1 : S128x512.Idx → EReal)
      = concatenate S128x512 1 [⟨S128x128, m ((c : Thread nD τ).loc main_arg3)⟩, ⟨S128x128, m ((c : Thread nD τ).loc main_arg6)⟩,
          ⟨S128x128, m ((c : Thread nD τ).loc main_arg9)⟩, ⟨S128x128, m ((c : Thread nD τ).loc main_arg12)⟩]
          concatenates_S128x128_S128x128_S128x128_S128x128_S128x512_d1 := by
  dsimp only [V]
  simp only [hostOps0, List.flatten_cons, List.flatten_nil, List.append_nil, List.cons_append, List.nil_append]
  after_results
  rfl

/-- The joined hidden-side weights: Ui, Uo, Uu side by side. -/
theorem V_joinedU (c : Dev nD) :
    (V m c main_v3 : S128x384.Idx → EReal)
      = concatenate S128x384 1 [⟨S128x128, m ((c : Thread nD τ).loc main_arg5)⟩, ⟨S128x128, m ((c : Thread nD τ).loc main_arg8)⟩, ⟨S128x128, m ((c : Thread nD τ).loc main_arg11)⟩]
          concatenates_S128x128_S128x128_S128x128_S128x384_d1 := by
  dsimp only [V]
  simp only [hostOps0, List.flatten_cons, List.flatten_nil, List.append_nil, List.cons_append, List.nil_append]
  after_results
  rfl

/-- The forget matrix, its float format changed (the identity here). -/
theorem V_forget (c : Dev nD) : (V m c main_v4 : S128x128.Idx → EReal) = m ((c : Thread nD τ).loc main_arg14) := by
  dsimp only [V]
  simp only [hostOps0, List.flatten_cons, List.flatten_nil, List.append_nil, List.cons_append, List.nil_append]
  after_results
  rfl

/-- The four biases end to end, recast as one row. -/
theorem V_joinedB (c : Dev nD) :
    (V m c main_v6 : S1x512.Idx → EReal)
      = shapeCast S1x512 (concatenate S512 0 [⟨S128, m ((c : Thread nD τ).loc main_arg4)⟩, ⟨S128, m ((c : Thread nD τ).loc main_arg7)⟩, ⟨S128, m ((c : Thread nD τ).loc main_arg10)⟩, ⟨S128, m ((c : Thread nD τ).loc main_arg13)⟩]
          concatenates_S128_S128_S128_S128_S512_d0) shapeCasts_S512_S1x512 := by
  dsimp only [V]
  simp only [hostOps0, List.flatten_cons, List.flatten_nil, List.append_nil, List.cons_append, List.nil_append]
  after_results
  rfl

/-! ## The joined buffers piece by piece -/

theorem joinedW_0 (c : Dev nD) (d j : Fin 128) :
    (V m c main_v1 (ix2 d (colAt 0 j 512 (by norm_num))) : EReal) = m ((c : Thread nD τ).loc main_arg3) (ix2 d j) := by
  rw [V_joinedW]
  refine concatenate_apply_piece (t := S128x512) (1 : Fin 2) _ _ _ 0 ?_ S128x128 _ ?_ rfl 0 ?_ (ix2 d j) (fun b hb => ?_) ?_
  · simp
  · rfl
  · rfl
  · match b with
    | ⟨0, _⟩ => rfl
    | ⟨1, _⟩ => exact absurd rfl hb
  · rfl

theorem joinedW_1 (c : Dev nD) (d j : Fin 128) :
    (V m c main_v1 (ix2 d (colAt 128 j 512 (by norm_num))) : EReal) = m ((c : Thread nD τ).loc main_arg6) (ix2 d j) := by
  rw [V_joinedW]
  refine concatenate_apply_piece (t := S128x512) (1 : Fin 2) _ _ _ 1 ?_ S128x128 _ ?_ rfl 128 ?_ (ix2 d j) (fun b hb => ?_) ?_
  · simp
  · rfl
  · rfl
  · match b with
    | ⟨0, _⟩ => rfl
    | ⟨1, _⟩ => exact absurd rfl hb
  · rfl

theorem joinedW_2 (c : Dev nD) (d j : Fin 128) :
    (V m c main_v1 (ix2 d (colAt 256 j 512 (by norm_num))) : EReal) = m ((c : Thread nD τ).loc main_arg9) (ix2 d j) := by
  rw [V_joinedW]
  refine concatenate_apply_piece (t := S128x512) (1 : Fin 2) _ _ _ 2 ?_ S128x128 _ ?_ rfl 256 ?_ (ix2 d j) (fun b hb => ?_) ?_
  · simp
  · rfl
  · rfl
  · match b with
    | ⟨0, _⟩ => rfl
    | ⟨1, _⟩ => exact absurd rfl hb
  · rfl

theorem joinedW_3 (c : Dev nD) (d j : Fin 128) :
    (V m c main_v1 (ix2 d (colAt 384 j 512 (by norm_num))) : EReal) = m ((c : Thread nD τ).loc main_arg12) (ix2 d j) := by
  rw [V_joinedW]
  refine concatenate_apply_piece (t := S128x512) (1 : Fin 2) _ _ _ 3 ?_ S128x128 _ ?_ rfl 384 ?_ (ix2 d j) (fun b hb => ?_) ?_
  · simp
  · rfl
  · rfl
  · match b with
    | ⟨0, _⟩ => rfl
    | ⟨1, _⟩ => exact absurd rfl hb
  · rfl

theorem joinedU_0 (c : Dev nD) (d j : Fin 128) :
    (V m c main_v3 (ix2 d (colAt 0 j 384 (by norm_num))) : EReal) = m ((c : Thread nD τ).loc main_arg5) (ix2 d j) := by
  rw [V_joinedU]
  refine concatenate_apply_piece (t := S128x384) (1 : Fin 2) _ _ _ 0 ?_ S128x128 _ ?_ rfl 0 ?_ (ix2 d j) (fun b hb => ?_) ?_
  · simp
  · rfl
  · rfl
  · match b with
    | ⟨0, _⟩ => rfl
    | ⟨1, _⟩ => exact absurd rfl hb
  · rfl

theorem joinedU_1 (c : Dev nD) (d j : Fin 128) :
    (V m c main_v3 (ix2 d (colAt 128 j 384 (by norm_num))) : EReal) = m ((c : Thread nD τ).loc main_arg8) (ix2 d j) := by
  rw [V_joinedU]
  refine concatenate_apply_piece (t := S128x384) (1 : Fin 2) _ _ _ 1 ?_ S128x128 _ ?_ rfl 128 ?_ (ix2 d j) (fun b hb => ?_) ?_
  · simp
  · rfl
  · rfl
  · match b with
    | ⟨0, _⟩ => rfl
    | ⟨1, _⟩ => exact absurd rfl hb
  · rfl

theorem joinedU_2 (c : Dev nD) (d j : Fin 128) :
    (V m c main_v3 (ix2 d (colAt 256 j 384 (by norm_num))) : EReal) = m ((c : Thread nD τ).loc main_arg11) (ix2 d j) := by
  rw [V_joinedU]
  refine concatenate_apply_piece (t := S128x384) (1 : Fin 2) _ _ _ 2 ?_ S128x128 _ ?_ rfl 256 ?_ (ix2 d j) (fun b hb => ?_) ?_
  · simp
  · rfl
  · rfl
  · match b with
    | ⟨0, _⟩ => rfl
    | ⟨1, _⟩ => exact absurd rfl hb
  · rfl

theorem joinedB_0 (c : Dev nD) (j : Fin 128) :
    (V m c main_v6 (ix2 (0 : Fin 1) (colAt 0 j 512 (by norm_num))) : EReal) = m ((c : Thread nD τ).loc main_arg4) (ix1 j) := by
  rw [V_joinedB]
  refine (shapeCast_a_1a_apply _ _ (0 : Fin 1) (colAt 0 j 512 (by norm_num))).trans ?_
  refine concatenate_apply_piece (t := S512) (0 : Fin 1) _ _ _ 0 ?_ S128 _ ?_ rfl 0 ?_ (ix1 j) (fun b hb => ?_) ?_
  · simp
  · rfl
  · rfl
  · match b with
    | ⟨0, _⟩ => exact absurd rfl hb
  · rfl

theorem joinedB_1 (c : Dev nD) (j : Fin 128) :
    (V m c main_v6 (ix2 (0 : Fin 1) (colAt 128 j 512 (by norm_num))) : EReal) = m ((c : Thread nD τ).loc main_arg7) (ix1 j) := by
  rw [V_joinedB]
  refine (shapeCast_a_1a_apply _ _ (0 : Fin 1) (colAt 128 j 512 (by norm_num))).trans ?_
  refine concatenate_apply_piece (t := S512) (0 : Fin 1) _ _ _ 1 ?_ S128 _ ?_ rfl 128 ?_ (ix1 j) (fun b hb => ?_) ?_
  · simp
  · rfl
  · rfl
  · match b with
    | ⟨0, _⟩ => exact absurd rfl hb
  · rfl

theorem joinedB_2 (c : Dev nD) (j : Fin 128) :
    (V m c main_v6 (ix2 (0 : Fin 1) (colAt 256 j 512 (by norm_num))) : EReal) = m ((c : Thread nD τ).loc main_arg10) (ix1 j) := by
  rw [V_joinedB]
  refine (shapeCast_a_1a_apply _ _ (0 : Fin 1) (colAt 256 j 512 (by norm_num))).trans ?_
  refine concatenate_apply_piece (t := S512) (0 : Fin 1) _ _ _ 2 ?_ S128 _ ?_ rfl 256 ?_ (ix1 j) (fun b hb => ?_) ?_
  · simp
  · rfl
  · rfl
  · match b with
    | ⟨0, _⟩ => exact absurd rfl hb
  · rfl

theorem joinedB_3 (c : Dev nD) (j : Fin 128) :
    (V m c main_v6 (ix2 (0 : Fin 1) (colAt 384 j 512 (by norm_num))) : EReal) = m ((c : Thread nD τ).loc main_arg13) (ix1 j) := by
  rw [V_joinedB]
  refine (shapeCast_a_1a_apply _ _ (0 : Fin 1) (colAt 384 j 512 (by norm_num))).trans ?_
  refine concatenate_apply_piece (t := S512) (0 : Fin 1) _ _ _ 3 ?_ S128 _ ?_ rfl 384 ?_ (ix1 j) (fun b hb => ?_) ?_
  · simp
  · rfl
  · rfl
  · match b with
    | ⟨0, _⟩ => exact absurd rfl hb
  · rfl

/-! ## The windows' block indices over the grid -/

/-- Point t reads and writes block t of the row-blocked arrays and block 0 of the resident ones. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 128 := lt_of_lt_of_eq t.isLt N_0

/-- Row p of point t's blocks is node 512·t + p. -/
def node (t : Fin cfg0.N) (p : Fin 512) : Fin 65536 := ⟨512 * t.val + p.val, by have := t_lt t; have := p.isLt; omega⟩

/-! ## The blocks as rows and pieces of the arrays -/

/-- Row p of the three streamed blocks at point t is node 512·t + p of x, child_h and child_c. -/
theorem row_of (c : Dev nD) (t : Fin cfg0.N) (p : Fin 512) :
    Row (iblk m c 0 t) (iblk m c 1 t) (iblk m c 2 t) (m ((c : Thread nD τ).loc main_arg0)) (m ((c : Thread nD τ).loc main_arg1)) (m ((c : Thread nD τ).loc main_arg2)) p (node t p) := by
  obtain ⟨e00, e01, e10, e11, e12, e20, e21, e22, -⟩ := idx_facts t
  refine ⟨fun d => ?_, fun k h => ?_, fun k j => ?_⟩
  · show V m c main_arg0 (((cfg0.win 0).blk t).view.emb (ix2 p d)) = _
    rw [V_main_arg0]
    refine congrArg (m ((c : Thread nD τ).loc main_arg0)) (funext fun a => Fin.ext ?_)
    match a with
    | ⟨0, _⟩ => show win0_0.index t (0 : Fin 2) * 512 + 1 * p.val = 512 * t.val + p.val; omega
    | ⟨1, _⟩ => show win0_0.index t (1 : Fin 2) * 128 + 1 * d.val = d.val; omega
  · show V m c main_arg1 (((cfg0.win 1).blk t).view.emb (ix3 p k h)) = _
    rw [V_main_arg1]
    refine congrArg (m ((c : Thread nD τ).loc main_arg1)) (funext fun a => Fin.ext ?_)
    match a with
    | ⟨0, _⟩ => show win0_1.index t (0 : Fin 3) * 512 + 1 * p.val = 512 * t.val + p.val; omega
    | ⟨1, _⟩ => show win0_1.index t (1 : Fin 3) * 8 + 1 * k.val = k.val; omega
    | ⟨2, _⟩ => show win0_1.index t (2 : Fin 3) * 128 + 1 * h.val = h.val; omega
  · show V m c main_arg2 (((cfg0.win 2).blk t).view.emb (ix3 p k j)) = _
    rw [V_main_arg2]
    refine congrArg (m ((c : Thread nD τ).loc main_arg2)) (funext fun a => Fin.ext ?_)
    match a with
    | ⟨0, _⟩ => show win0_2.index t (0 : Fin 3) * 512 + 1 * p.val = 512 * t.val + p.val; omega
    | ⟨1, _⟩ => show win0_2.index t (1 : Fin 3) * 8 + 1 * k.val = k.val; omega
    | ⟨2, _⟩ => show win0_2.index t (2 : Fin 3) * 128 + 1 * j.val = j.val; omega

/-- A resident window's block is the whole of its buffer, at every point. -/
theorem blk3_at (c : Dev nD) (t : Fin cfg0.N) (d : Fin 128) (q : Fin 512) : (iblk m c 3 t (ix2 d q) : EReal) = V m c main_v1 (ix2 d q) := by
  obtain ⟨-, -, -, -, -, -, -, -, e0, e1, -⟩ := idx_facts t
  show V m c main_v1 (((cfg0.win 3).blk t).view.emb (ix2 d q)) = _
  refine congrArg (V m c main_v1) (funext fun a => Fin.ext ?_)
  match a with
  | ⟨0, _⟩ => show win0_3.index t (0 : Fin 2) * 128 + 1 * d.val = d.val; omega
  | ⟨1, _⟩ => show win0_3.index t (1 : Fin 2) * 512 + 1 * q.val = q.val; omega

theorem blk4_at (c : Dev nD) (t : Fin cfg0.N) (u : Fin 1) (q : Fin 512) : (iblk m c 4 t (ix2 u q) : EReal) = V m c main_v6 (ix2 u q) := by
  obtain ⟨-, -, -, -, -, -, -, -, -, -, e0, e1, -⟩ := idx_facts t
  show V m c main_v6 (((cfg0.win 4).blk t).view.emb (ix2 u q)) = _
  refine congrArg (V m c main_v6) (funext fun a => Fin.ext ?_)
  match a with
  | ⟨0, _⟩ => show win0_4.index t (0 : Fin 2) * 1 + 1 * u.val = u.val; omega
  | ⟨1, _⟩ => show win0_4.index t (1 : Fin 2) * 512 + 1 * q.val = q.val; omega

theorem blk5_at (c : Dev nD) (t : Fin cfg0.N) (d : Fin 128) (q : Fin 384) : (iblk m c 5 t (ix2 d q) : EReal) = V m c main_v3 (ix2 d q) := by
  obtain ⟨-, -, -, -, -, -, -, -, -, -, -, -, e0, e1, -⟩ := idx_facts t
  show V m c main_v3 (((cfg0.win 5).blk t).view.emb (ix2 d q)) = _
  refine congrArg (V m c main_v3) (funext fun a => Fin.ext ?_)
  match a with
  | ⟨0, _⟩ => show win0_5.index t (0 : Fin 2) * 128 + 1 * d.val = d.val; omega
  | ⟨1, _⟩ => show win0_5.index t (1 : Fin 2) * 384 + 1 * q.val = q.val; omega

theorem blk6_at (c : Dev nD) (t : Fin cfg0.N) (d q : Fin 128) : (iblk m c 6 t (ix2 d q) : EReal) = m ((c : Thread nD τ).loc main_arg14) (ix2 d q) := by
  obtain ⟨-, -, -, -, -, -, -, -, -, -, -, -, -, -, e0, e1, -⟩ := idx_facts t
  show V m c main_v4 (((cfg0.win 6).blk t).view.emb (ix2 d q)) = _
  rw [V_forget]
  refine congrArg (m ((c : Thread nD τ).loc main_arg14)) (funext fun a => Fin.ext ?_)
  match a with
  | ⟨0, _⟩ => show win0_6.index t (0 : Fin 2) * 128 + 1 * d.val = d.val; omega
  | ⟨1, _⟩ => show win0_6.index t (1 : Fin 2) * 128 + 1 * q.val = q.val; omega

/-- The four resident blocks at any point are the weights. -/
theorem weights_of (c : Dev nD) (t : Fin cfg0.N) :
    Weights (iblk m c 3 t) (iblk m c 5 t) (iblk m c 6 t) (iblk m c 4 t)
      (m ((c : Thread nD τ).loc main_arg3)) (m ((c : Thread nD τ).loc main_arg5)) (m ((c : Thread nD τ).loc main_arg6)) (m ((c : Thread nD τ).loc main_arg8)) (m ((c : Thread nD τ).loc main_arg9)) (m ((c : Thread nD τ).loc main_arg11)) (m ((c : Thread nD τ).loc main_arg12)) (m ((c : Thread nD τ).loc main_arg14))
      (m ((c : Thread nD τ).loc main_arg4)) (m ((c : Thread nD τ).loc main_arg7)) (m ((c : Thread nD τ).loc main_arg10)) (m ((c : Thread nD τ).loc main_arg13)) where
  wi d j := (blk3_at m c t d _).trans (joinedW_0 m c d j)
  wo d j := (blk3_at m c t d _).trans (joinedW_1 m c d j)
  wu d j := (blk3_at m c t d _).trans (joinedW_2 m c d j)
  wf d j := (blk3_at m c t d _).trans (joinedW_3 m c d j)
  ui h j := (blk5_at m c t h _).trans (joinedU_0 m c h j)
  uo h j := (blk5_at m c t h _).trans (joinedU_1 m c h j)
  uu h j := (blk5_at m c t h _).trans (joinedU_2 m c h j)
  uf h j := blk6_at m c t h j
  bi j := (blk4_at m c t 0 _).trans (joinedB_0 m c j)
  bo j := (blk4_at m c t 0 _).trans (joinedB_1 m c j)
  bu j := (blk4_at m c t 0 _).trans (joinedB_2 m c j)
  bf j := (blk4_at m c t 0 _).trans (joinedB_3 m c j)

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The index of the array that row p, column j of point t's output block lands on: node 512·t + p, column j. -/
theorem out_emb (w : Fin 2) (t : Fin cfg0.N) (p : Fin 512) (j : Fin 128) :
    (((cfg0.win 7).blk t).view.emb (ix2 p j) = ix2 (node t p) j) ∧ (((cfg0.win 8).blk t).view.emb (ix2 p j) = ix2 (node t p) j) := by
  obtain ⟨-, -, -, -, -, -, -, -, -, -, -, -, -, -, -, -, e70, e71, e80, e81⟩ := idx_facts t
  refine ⟨funext fun a => Fin.ext ?_, funext fun a => Fin.ext ?_⟩
  · match a with
    | ⟨0, _⟩ => show win0_7.index t (0 : Fin 2) * 512 + 1 * p.val = 512 * t.val + p.val; omega
    | ⟨1, _⟩ => show win0_7.index t (1 : Fin 2) * 128 + 1 * j.val = j.val; omega
  · match a with
    | ⟨0, _⟩ => show win0_8.index t (0 : Fin 2) * 512 + 1 * p.val = 512 * t.val + p.val; omega
    | ⟨1, _⟩ => show win0_8.index t (1 : Fin 2) * 128 + 1 * j.val = j.val; omega

/-- What point t writes back to the hidden-state output is block t of the tree cell's h of the arguments. -/
theorem flushed7_eq (c : Dev nD) (t : Fin cfg0.N) :
    (dats m 0 c).flushed 7 t = ((cfg0.win 7).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 7).cut (grid0.coords t) ((dats m 0 c).after 7 t) = _
  rw [after0_7]
  unfold out0_7
  rw [View.canon_unit_zero hz2]
  unfold hiddenBlock
  simp only [View.ld_unit_zero (S := S512x128) hz2, View.ld_unit_zero (S := S512x8x128) hz3, View.ld_unit_zero (S := S128x512) hz2,
    View.ld_unit_zero (S := S1x512) hz2, View.ld_unit_zero (S := S128x384) hz2, View.ld_unit_zero (S := S128x128) hz2]
  funext y
  obtain ⟨p, j, rfl⟩ : ∃ (p : Fin 512) (j : Fin 128), y = ix2 p j := ⟨y 0, y 1, eq_ix2 y⟩
  refine (hidden_node (weights_of m c t) (row_of m c t p) j).trans ?_
  show _ = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 7).blk t).view.emb (ix2 p j))
  rw [(out_emb 0 t p j).1]
  rfl

/-- What point t writes back to the cell-state output is block t of the tree cell's c of the arguments. -/
theorem flushed8_eq (c : Dev nD) (t : Fin cfg0.N) :
    (dats m 0 c).flushed 8 t = ((cfg0.win 8).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 8).cut (grid0.coords t) ((dats m 0 c).after 8 t) = _
  rw [after0_8]
  unfold out0_8
  rw [View.canon_unit_zero hz2]
  unfold cellBlock
  simp only [View.ld_unit_zero (S := S512x128) hz2, View.ld_unit_zero (S := S512x8x128) hz3, View.ld_unit_zero (S := S128x512) hz2,
    View.ld_unit_zero (S := S1x512) hz2, View.ld_unit_zero (S := S128x384) hz2, View.ld_unit_zero (S := S128x128) hz2]
  funext y
  obtain ⟨p, j, rfl⟩ : ∃ (p : Fin 512) (j : Fin 128), y = ix2 p j := ⟨y 0, y 1, eq_ix2 y⟩
  refine (cell_node (weights_of m c t) (row_of m c t p) j).trans ?_
  show _ = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 8).blk t).view.emb (ix2 p j))
  rw [(out_emb 0 t p j).2]
  rfl

/-! ## The blocks tile the arrays -/

theorem mem_blk7 (t : Fin cfg0.N) (i : S65536x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v7_0).slice (win0_7.rect t)).set ↔ _
  rw [View.set_slice_whole, Rect.mem_set_unit]
  exact Iff.rfl

theorem mem_blk8 (t : Fin cfg0.N) (i : S65536x128.Idx) :
    i ∈ ((cfg0.win 8).blk t).view.set ↔ ∀ a : Fin 2, win0_8.index t a * S512x128.size a ≤ (i a).val ∧ (i a).val < win0_8.index t a * S512x128.size a + S512x128.size a := by
  show i ∈ ((View.whole main_v7_1).slice (win0_8.rect t)).set ↔ _
  rw [View.set_slice_whole, Rect.mem_set_unit]
  exact Iff.rfl

/-- Row r of either output lies in the block of point r / 512. -/
theorem cover7 (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  let t : Fin cfg0.N := ⟨(i 0).val / 512, by rw [show cfg0.N = 128 from N_0]; omega⟩
  obtain ⟨-, -, -, -, -, -, -, -, -, -, -, -, -, -, -, -, e70, e71, -⟩ := idx_facts t
  have ht : t.val = (i 0).val / 512 := rfl
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 128 ≤ (i 1).val ∧ (i 1).val < win0_7.index t (1 : Fin 2) * 128 + 128; omega

theorem cover8 (i : S65536x128.Idx) : ∃ t : Fin cfg0.N, (cfg0.win 8).flush t = true ∧ i ∈ ((cfg0.win 8).blk t).view.set := by
  have hi0 : (i 0).val < 65536 := (i 0).isLt
  have hi1 : (i 1).val < 128 := (i 1).isLt
  let t : Fin cfg0.N := ⟨(i 0).val / 512, by rw [show cfg0.N = 128 from N_0]; omega⟩
  obtain ⟨-, -, -, -, -, -, -, -, -, -, -, -, -, -, -, -, -, -, e80, e81⟩ := idx_facts t
  have ht : t.val = (i 0).val / 512 := rfl
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 128 ≤ (i 1).val ∧ (i 1).val < win0_8.index t (1 : Fin 2) * 128 + 128; omega

/-! ## The arrays after the run, and the run -/

theorem final7 (c : Dev nD) : (dats m 0 c).arrAt 7 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 7 _ (fun t _ => flushed7_eq m c t) cover7

theorem final8 (c : Dev nD) : (dats m 0 c).arrAt 8 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 8 _ (fun t _ => flushed8_eq m c t) cover8

/-- Every weakly fair execution of the idealized kernel's @main terminates with the first result the tree cell's h
    and the second its c of the argument arrays, and the arguments as given. -/
theorem run : θ_run defs (onTc (τ := τ) (main (F := Ideal))) ⟨m, fun _ => 0, ρ⟩ fun r => ∀ c : Dev nD,
      r.2.mem ((c : Thread nD τ).loc main_v7_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v7_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Whole

end
-- ==== Proof.ReferenceCell.lean ====
/-
  The reference program's two results, index by index, are the tree cell. Each of its host lines is read at an index
  by the generated per-line lemmas; here those are chained along the cell's own structure: a bias added to a product
  (four times), the children's sum against a matrix (three times), the squashing 1 / (1 + e^(−t)) spelt with a
  negation, an exponential, a sum with 1 and a quotient (three times), the per-child forget gate, and the two
  results. The reference adds the forget gate's two terms in the other order; addition of extended reals commutes.
-/
import proofs.«114151_j15710990369454_2_alg».proof.Proof.Gen.ReferenceIdeal.Read
import proofs.«114151_j15710990369454_2_alg».proof.Proof.TreeCell

noncomputable section

namespace Cert.ReferenceIdeal.Cell

open Idealize.ShloMosaic Idealize.ShloMosaic.ValueIdx Cert.ReferenceIdeal Cert.ReferenceIdeal.Read Cert.TreeCell

/-- The children's summed hidden state: the host's sum from the zero word. -/
theorem ref_kidSum (ch : Kids.Idx → EReal) (n : Fin 65536) (h : Fin 128) :
    val_main_v0 (F := Ideal) ch (ix2 n h) = kidSum ch n h := by
  rw [val_main_v0_apply]
  show Ideal.ofBits .f32 0x00000000#32 + _ = _
  rw [Ideal.ofBits_zero_f32, zero_add]
  exact Finset.sum_congr rfl fun k _ => congrArg ch (funext fun a => Fin.ext (by match a with | ⟨0, _⟩ => rfl | ⟨1, _⟩ => rfl | ⟨2, _⟩ => rfl))

/-- Line 4: a product of x with a weight matrix plus the bias, repeated down the rows. -/
theorem ref_lin_4 (x : Rows.Idx → EReal) (W : Mat.Idx → EReal) (b : Bias.Idx → EReal) (n : Fin 65536) (j : Fin 128) :
    val_main_v4 (F := Ideal) x W b (ix2 n j) = lin x W b n j := by
  rw [val_main_v4_apply, val_main_v1_apply, val_main_v3_apply, val_main_v2_apply]
  unfold lin
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Line 16: a product of x with a weight matrix plus the bias, repeated down the rows. -/
theorem ref_lin_16 (x : Rows.Idx → EReal) (W : Mat.Idx → EReal) (b : Bias.Idx → EReal) (n : Fin 65536) (j : Fin 128) :
    val_main_v16 (F := Ideal) x W b (ix2 n j) = lin x W b n j := by
  rw [val_main_v16_apply, val_main_v13_apply, val_main_v15_apply, val_main_v14_apply]
  unfold lin
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Line 28: a product of x with a weight matrix plus the bias, repeated down the rows. -/
theorem ref_lin_28 (x : Rows.Idx → EReal) (W : Mat.Idx → EReal) (b : Bias.Idx → EReal) (n : Fin 65536) (j : Fin 128) :
    val_main_v28 (F := Ideal) x W b (ix2 n j) = lin x W b n j := by
  rw [val_main_v28_apply, val_main_v25_apply, val_main_v27_apply, val_main_v26_apply]
  unfold lin
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Line 35: a product of x with a weight matrix plus the bias, repeated down the rows. -/
theorem ref_lin_35 (x : Rows.Idx → EReal) (W : Mat.Idx → EReal) (b : Bias.Idx → EReal) (n : Fin 65536) (j : Fin 128) :
    val_main_v35 (F := Ideal) x W b (ix2 n j) = lin x W b n j := by
  rw [val_main_v35_apply, val_main_v32_apply, val_main_v34_apply, val_main_v33_apply]
  unfold lin
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Line 5: the children's summed hidden state against a weight matrix. -/
theorem ref_hid_5 (ch : Kids.Idx → EReal) (U : Mat.Idx → EReal) (n : Fin 65536) (j : Fin 128) :
    val_main_v5 (F := Ideal) ch U (ix2 n j) = ∑ h : Fin 128, kidSum ch n h * U (ix2 h j) := by
  rw [val_main_v5_apply]
  refine Finset.sum_congr rfl fun k _ => congrArg₂ (· * ·) ((congrArg (val_main_v0 (F := Ideal) ch) ?_).trans (ref_kidSum ch n k)) (congrArg U ?_)
  · exact funext fun a => Fin.ext (by match a with | ⟨0, _⟩ => rfl | ⟨1, _⟩ => rfl)
  · exact funext fun a => Fin.ext (by match a with | ⟨0, _⟩ => rfl | ⟨1, _⟩ => rfl)

/-- Line 17: the children's summed hidden state against a weight matrix. -/
theorem ref_hid_17 (ch : Kids.Idx → EReal) (U : Mat.Idx → EReal) (n : Fin 65536) (j : Fin 128) :
    val_main_v17 (F := Ideal) ch U (ix2 n j) = ∑ h : Fin 128, kidSum ch n h * U (ix2 h j) := by
  rw [val_main_v17_apply]
  refine Finset.sum_congr rfl fun k _ => congrArg₂ (· * ·) ((congrArg (val_main_v0 (F := Ideal) ch) ?_).trans (ref_kidSum ch n k)) (congrArg U ?_)
  · exact funext fun a => Fin.ext (by match a with | ⟨0, _⟩ => rfl | ⟨1, _⟩ => rfl)
  · exact funext fun a => Fin.ext (by match a with | ⟨0, _⟩ => rfl | ⟨1, _⟩ => rfl)

/-- Line 29: the children's summed hidden state against a weight matrix. -/
theorem ref_hid_29 (ch : Kids.Idx → EReal) (U : Mat.Idx → EReal) (n : Fin 65536) (j : Fin 128) :
    val_main_v29 (F := Ideal) ch U (ix2 n j) = ∑ h : Fin 128, kidSum ch n h * U (ix2 h j) := by
  rw [val_main_v29_apply]
  refine Finset.sum_congr rfl fun k _ => congrArg₂ (· * ·) ((congrArg (val_main_v0 (F := Ideal) ch) ?_).trans (ref_kidSum ch n k)) (congrArg U ?_)
  · exact funext fun a => Fin.ext (by match a with | ⟨0, _⟩ => rfl | ⟨1, _⟩ => rfl)
  · exact funext fun a => Fin.ext (by match a with | ⟨0, _⟩ => rfl | ⟨1, _⟩ => rfl)

/-- Line 6: a gate before its squashing. -/
theorem ref_pre_6 (x : Rows.Idx → EReal) (ch : Kids.Idx → EReal) (W : Mat.Idx → EReal) (b : Bias.Idx → EReal) (U : Mat.Idx → EReal)
    (n : Fin 65536) (j : Fin 128) :
    val_main_v6 (F := Ideal) x ch W b U (ix2 n j) = pre x ch W b U n j := by
  rw [val_main_v6_apply]
  unfold pre
  exact congrArg₂ (· + ·) (ref_lin_4 x W b n j) (ref_hid_5 ch U n j)

/-- Line 18: a gate before its squashing. -/
theorem ref_pre_18 (x : Rows.Idx → EReal) (ch : Kids.Idx → EReal) (W : Mat.Idx → EReal) (b : Bias.Idx → EReal) (U : Mat.Idx → EReal)
    (n : Fin 65536) (j : Fin 128) :
    val_main_v18 (F := Ideal) x ch W b U (ix2 n j) = pre x ch W b U n j := by
  rw [val_main_v18_apply]
  unfold pre
  exact congrArg₂ (· + ·) (ref_lin_16 x W b n j) (ref_hid_17 ch U n j)

/-- Line 30: a gate before its squashing. -/
theorem ref_pre_30 (x : Rows.Idx → EReal) (ch : Kids.Idx → EReal) (W : Mat.Idx → EReal) (b : Bias.Idx → EReal) (U : Mat.Idx → EReal)
    (n : Fin 65536) (j : Fin 128) :
    val_main_v30 (F := Ideal) x ch W b U (ix2 n j) = pre x ch W b U n j := by
  rw [val_main_v30_apply]
  unfold pre
  exact congrArg₂ (· + ·) (ref_lin_28 x W b n j) (ref_hid_29 ch U n j)

/-- Lines 7–12: negate, exponentiate, add 1, divide 1 by it — the squashing of line 6. -/
theorem ref_sig_12 (x : Rows.Idx → EReal) (ch : Kids.Idx → EReal) (W : Mat.Idx → EReal) (b : Bias.Idx → EReal) (U : Mat.Idx → EReal) (i : S65536x128.Idx) :
    val_main_v12 (F := Ideal) x ch W b U i = Ideal.logistic (val_main_v6 (F := Ideal) x ch W b U i) := by
  rw [val_main_v12_apply, val_main_v11_apply, val_main_cst_1_apply, val_main_v10_apply, val_main_v9_apply, val_main_cst_0_apply,
    val_main_v8_apply, val_main_v7_apply]
  exact logistic_spelt _

/-- Lines 19–24: negate, exponentiate, add 1, divide 1 by it — the squashing of line 18. -/
theorem ref_sig_24 (x : Rows.Idx → EReal) (ch : Kids.Idx → EReal) (W : Mat.Idx → EReal) (b : Bias.Idx → EReal) (U : Mat.Idx → EReal) (i : S65536x128.Idx) :
    val_main_v24 (F := Ideal) x ch W b U i = Ideal.logistic (val_main_v18 (F := Ideal) x ch W b U i) := by
  rw [val_main_v24_apply, val_main_v23_apply, val_main_cst_3_apply, val_main_v22_apply, val_main_v21_apply, val_main_cst_2_apply,
    val_main_v20_apply, val_main_v19_apply]
  exact logistic_spelt _

/-- Lines 40–45: negate, exponentiate, add 1, divide 1 by it — the squashing of line 39. -/
theorem ref_sig_45 (x : Rows.Idx → EReal) (ch : Kids.Idx → EReal) (W : Mat.Idx → EReal) (b : Bias.Idx → EReal) (U : Mat.Idx → EReal) (i : S65536x8x128.Idx) :
    val_main_v45 (F := Ideal) x ch W b U i = Ideal.logistic (val_main_v39 (F := Ideal) x ch W b U i) := by
  rw [val_main_v45_apply, val_main_v44_apply, val_main_cst_5_apply, val_main_v43_apply, val_main_v42_apply, val_main_cst_4_apply,
    val_main_v41_apply, val_main_v40_apply]
  exact logistic_spelt _

/-- Line 39: child k's forget gate before its squashing; the reference adds the input side first. -/
theorem ref_forgetPre (x : Rows.Idx → EReal) (ch : Kids.Idx → EReal) (Wf : Mat.Idx → EReal) (bf : Bias.Idx → EReal) (Uf : Mat.Idx → EReal)
    (n : Fin 65536) (k : Fin 8) (j : Fin 128) :
    val_main_v39 (F := Ideal) x ch Wf bf Uf (ix3 n k j) = forgetPre x ch Wf bf Uf n k j := by
  rw [val_main_v39_apply, val_main_v38_apply, val_main_v36_apply, val_main_v37_apply]
  unfold forgetPre
  refine (add_comm _ _).trans (congrArg₂ (· + ·) (Finset.sum_congr rfl fun h _ => congrArg₂ (· * ·) (congrArg ch ?_) (congrArg Uf ?_)) ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact (congrArg (val_main_v35 (F := Ideal) x Wf bf) (funext fun a => Fin.ext (by match a with | ⟨0, _⟩ => rfl | ⟨1, _⟩ => rfl))).trans (ref_lin_35 x Wf bf n j)

/-- The second result, line 49: the new cell state. -/
theorem ref_cell (x : Rows.Idx → EReal) (ch cc : Kids.Idx → EReal) (Wi : Mat.Idx → EReal) (bi : Bias.Idx → EReal) (Ui : Mat.Idx → EReal)
    (Wu : Mat.Idx → EReal) (bu : Bias.Idx → EReal) (Uu : Mat.Idx → EReal) (Wf : Mat.Idx → EReal) (bf : Bias.Idx → EReal) (Uf : Mat.Idx → EReal)
    (n : Fin 65536) (j : Fin 128) :
    val_main_v49 (F := Ideal) x ch cc Wi bi Ui Wu bu Uu Wf bf Uf (ix2 n j) = cellState x ch cc Wi bi Ui Wu bu Uu Wf bf Uf n j := by
  rw [val_main_v49_apply, val_main_v46_apply, val_main_v31_apply, val_main_v48_apply]
  unfold cellState
  refine congrArg₂ (· + ·) (congrArg₂ (· * ·) ((ref_sig_12 x ch Wi bi Ui _).trans (congrArg Ideal.logistic (ref_pre_6 x ch Wi bi Ui n j)))
    (congrArg Ideal.tanh (ref_pre_30 x ch Wu bu Uu n j))) ?_
  show Ideal.ofBits .f32 0x00000000#32 + _ = _
  rw [Ideal.ofBits_zero_f32, zero_add]
  refine Finset.sum_congr rfl fun k _ => ?_
  have e : idx_main_v48 (ix2 n j) k = ix3 n k j := funext fun a => Fin.ext (by match a with | ⟨0, _⟩ => rfl | ⟨1, _⟩ => rfl | ⟨2, _⟩ => rfl)
  rw [e, val_main_v47_apply]
  exact congrArg₂ (· * ·) ((ref_sig_45 x ch Wf bf Uf _).trans (congrArg Ideal.logistic (ref_forgetPre x ch Wf bf Uf n k j))) rfl

/-- The first result, line 51: the new hidden state. -/
theorem ref_hidden (x : Rows.Idx → EReal) (ch cc : Kids.Idx → EReal) (Wi : Mat.Idx → EReal) (bi : Bias.Idx → EReal) (Ui : Mat.Idx → EReal)
    (Wo : Mat.Idx → EReal) (bo : Bias.Idx → EReal) (Uo : Mat.Idx → EReal)
    (Wu : Mat.Idx → EReal) (bu : Bias.Idx → EReal) (Uu : Mat.Idx → EReal) (Wf : Mat.Idx → EReal) (bf : Bias.Idx → EReal) (Uf : Mat.Idx → EReal)
    (n : Fin 65536) (j : Fin 128) :
    val_main_v51 (F := Ideal) x ch cc Wi bi Ui Wo bo Uo Wu bu Uu Wf bf Uf (ix2 n j) = hiddenState x ch cc Wi bi Ui Wo bo Uo Wu bu Uu Wf bf Uf n j := by
  rw [val_main_v51_apply, val_main_v50_apply]
  unfold hiddenState
  exact congrArg₂ (· * ·) ((ref_sig_24 x ch Wo bo Uo _).trans (congrArg Ideal.logistic (ref_pre_18 x ch Wo bo Uo n j)))
    (congrArg Ideal.tanh (ref_cell x ch cc Wi bi Ui Wu bu Uu Wf bf Uf n j))

/-- The two results as whole arrays. -/
theorem ref_cellArr (x : Rows.Idx → EReal) (ch cc : Kids.Idx → EReal) (Wi : Mat.Idx → EReal) (bi : Bias.Idx → EReal) (Ui : Mat.Idx → EReal)
    (Wu : Mat.Idx → EReal) (bu : Bias.Idx → EReal) (Uu : Mat.Idx → EReal) (Wf : Mat.Idx → EReal) (bf : Bias.Idx → EReal) (Uf : Mat.Idx → EReal) :
    val_main_v49 (F := Ideal) x ch cc Wi bi Ui Wu bu Uu Wf bf Uf = cellArr x ch cc Wi bi Ui Wu bu Uu Wf bf Uf := by
  funext i
  obtain ⟨n, j, rfl⟩ : ∃ (n : Fin 65536) (j : Fin 128), i = ix2 n j := ⟨i 0, i 1, eq_ix2 i⟩
  exact ref_cell x ch cc Wi bi Ui Wu bu Uu Wf bf Uf n j

theorem ref_hiddenArr (x : Rows.Idx → EReal) (ch cc : Kids.Idx → EReal) (Wi : Mat.Idx → EReal) (bi : Bias.Idx → EReal) (Ui : Mat.Idx → EReal)
    (Wo : Mat.Idx → EReal) (bo : Bias.Idx → EReal) (Uo : Mat.Idx → EReal)
    (Wu : Mat.Idx → EReal) (bu : Bias.Idx → EReal) (Uu : Mat.Idx → EReal) (Wf : Mat.Idx → EReal) (bf : Bias.Idx → EReal) (Uf : Mat.Idx → EReal) :
    val_main_v51 (F := Ideal) x ch cc Wi bi Ui Wo bo Uo Wu bu Uu Wf bf Uf = hiddenArr x ch cc Wi bi Ui Wo bo Uo Wu bu Uu Wf bf Uf := by
  funext i
  obtain ⟨n, j, rfl⟩ : ∃ (n : Fin 65536) (j : Fin 128), i = ix2 n j := ⟨i 0, i 1, eq_ix2 i⟩
  exact ref_hidden x ch cc Wi bi Ui Wo bo Uo Wu bu Uu Wf bf Uf n j

end Cert.ReferenceIdeal.Cell

end
-- ==== Proof.lean ====
/-
  The certificate of the child-sum tree cell. For every node n (eight children k, 128 hidden coordinates j) both
  programs compute, over the extended reals,
    c(n,j) = σ(g_i)·tanh(g_u) + Σₖ σ(Σ_h child_h(n,k,h)·Uf(h,j) + (x·Wf + bf)(n,j)) · child_c(n,k,j),   h(n,j) = σ(g_o)·tanh c(n,j),
  where g_• = (x·W• + b•)(n,j) + Σ_h (Σₖ child_h(n,k,h))·U•(h,j) and σ t = 1 / (1 + e^(−t)).
  The kernel computes the three gates from one product against the four input-side matrices joined side by side and
  one against the three hidden-side matrices joined side by side, and the eight forget gates from one product of the
  512·8 child rows of a block; read at an entry, a product against joined matrices is the product against the matrix
  the column came from, so the two programs agree entry by entry with no appeal to finiteness: the only reordering
  is the forget gate's sum of two terms, and addition of extended reals commutes. The reference spells σ with a
  negation, an exponential, a sum with 1 and a quotient; that is the kernel's σ by definition.
  Frames: the kernel programs run their 128 grid points over blocks of 512 nodes and leave the fifteen argument arrays
  untouched (the lines before the launch write only the joined copies); the reference is a straight line of host
  operations. The idealization rewrote nothing, so there is nothing to preserve.
-/
import proofs.«114151_j15710990369454_2_alg».proof.Defs
import proofs.«114151_j15710990369454_2_alg».proof.Proof.Gen.Kernel
import proofs.«114151_j15710990369454_2_alg».proof.Proof.Gen.KernelIdeal
import proofs.«114151_j15710990369454_2_alg».proof.Proof.Gen.ReferenceIdeal
import proofs.«114151_j15710990369454_2_alg».proof.Proof.Gen.Pre_finite_inputs
import proofs.«114151_j15710990369454_2_alg».proof.Proof.Gen.ReferenceIdeal.Run
import proofs.«114151_j15710990369454_2_alg».proof.Proof.Gen.ReferenceIdeal.Read
import proofs.«114151_j15710990369454_2_alg».proof.Proof.KernelBody
import proofs.«114151_j15710990369454_2_alg».proof.Proof.KernelIdealValue
import proofs.«114151_j15710990369454_2_alg».proof.Proof.ReferenceCell
import Idealize.ShloMosaic.Adequacy
import Idealize.ShloMosaic.Init

noncomputable section

namespace Cert.Proof

open Idealize.ShloMosaic Idealize.SL.Sem

/-- The word-level kernel runs to the end and leaves its arguments as given. -/
theorem frame_k : Cert.frame_Kernel := fun m ρ _ => Cert.Kernel.Region.frame m ρ

/-- So does the idealized kernel. -/
theorem frame_ki : Cert.frame_KernelIdeal := fun m ρ _ => Cert.KernelIdeal.Region.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the tree cell's h and c of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v51_eq, Cert.ReferenceIdeal.Cell.ref_hiddenArr,
      a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v49_eq, Cert.ReferenceIdeal.Cell.ref_cellArr,
      a0, a1, a2, a3, a4, a5, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
